-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x16 : Shape := ⟨2, ![512, 16]⟩
abbrev S16 : Shape := ⟨1, ![16]⟩
abbrev S16x7 : Shape := ⟨2, ![16, 7]⟩
abbrev S7 : Shape := ⟨1, ![7]⟩
abbrev S2x3200000 : Shape := ⟨2, ![2, 3200000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg4 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg4
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x512 .f32) (main_arg1 : FVec F S512x16 .f32) (main_arg2 : FVec F S16 .f32) (main_arg3 : FVec F S16x7 .f32) (main_arg4 : FVec F S7 .f32) (main_arg5 : IVec S2x3200000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg3
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg4 main_v13 main_v16
-- ==== Kernel.lean ====
abbrev S100000x512 : Shape := ⟨2, ![100000, 512]⟩
abbrev S512x16 : Shape := ⟨2, ![512, 16]⟩
abbrev S16 : Shape := ⟨1, ![16]⟩
abbrev S16x7 : Shape := ⟨2, ![16, 7]⟩
abbrev S7 : Shape := ⟨1, ![7]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S4000x512 : Shape := ⟨2, ![4000, 512]⟩
abbrev S4000x16 : Shape := ⟨2, ![4000, 16]⟩
abbrev S3300000x16 : Shape := ⟨2, ![3300000, 16]⟩
abbrev S1x16 : Shape := ⟨2, ![1, 16]⟩
abbrev S10000x16 : Shape := ⟨2, ![10000, 16]⟩
abbrev S100000x7 : Shape := ⟨2, ![100000, 7]⟩
abbrev S10000x7 : Shape := ⟨2, ![10000, 7]⟩
abbrev S3300000x7 : Shape := ⟨2, ![3300000, 7]⟩
abbrev S1x7 : Shape := ⟨2, ![1, 7]⟩
abbrev S10000 : Shape := ⟨1, ![10000]⟩
abbrev S10000x1 : Shape := ⟨2, ![10000, 1]⟩

abbrev nBuf : Space → Nat
  | .hbm => 86
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S512x16, .f32⟩
  | .hbm, ⟨2, _⟩ => ⟨S16, .f32⟩
  | .hbm, ⟨3, _⟩ => ⟨S16x7, .f32⟩
  | .hbm, ⟨4, _⟩ => ⟨S7, .f32⟩
  | .hbm, ⟨5, _⟩ => ⟨S2x3200000, .i32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x16, .f32⟩
  | .hbm, ⟨49, _⟩ => ⟨S3300000x1, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x16, .f32⟩
  | .hbm, ⟨60, _⟩ => ⟨S3300000x16, .f32⟩
  | .hbm, ⟨61, _⟩ => ⟨S_, .f32⟩
  | .hbm, ⟨62, _⟩ => ⟨S100000x16, .f32⟩
  | .hbm, ⟨63, _⟩ => ⟨S3300000x1, .i32⟩
  | .hbm, ⟨64, _⟩ => ⟨S100000x16, .f32⟩
  | .hbm, ⟨65, _⟩ => ⟨S1x16, .f32⟩
  | .hbm, ⟨66, _⟩ => ⟨S100000x16, .f32⟩
  | .hbm, ⟨67, _⟩ => ⟨S100000x7, .f32⟩
  | .hbm, ⟨68, _⟩ => ⟨S3300000x1, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x7, .f32⟩
  | .hbm, ⟨78, _⟩ => ⟨S3300000x7, .f32⟩
  | .hbm, ⟨79, _⟩ => ⟨S3300000x7, .f32⟩
  | .hbm, ⟨80, _⟩ => ⟨S_, .f32⟩
  | .hbm, ⟨81, _⟩ => ⟨S100000x7, .f32⟩
  | .hbm, ⟨82, _⟩ => ⟨S3300000x1, .i32⟩
  | .hbm, ⟨83, _⟩ => ⟨S100000x7, .f32⟩
  | .hbm, ⟨84, _⟩ => ⟨S1x7, .f32⟩
  | .hbm, ⟨85, _⟩ => ⟨S100000x7, .f32⟩
  | .local _ .vmem, ⟨0, _⟩ => ⟨S4000x512, .f32⟩
  | .local _ .vmem, ⟨1, _⟩ => ⟨S4000x512, .f32⟩
  | .local _ .vmem, ⟨2, _⟩ => ⟨S512x16, .f32⟩
  | .local _ .vmem, ⟨3, _⟩ => ⟨S4000x16, .f32⟩
  | .local _ .vmem, ⟨4, _⟩ => ⟨S4000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S16x7, .f32⟩
  | .local _ .vmem, ⟨13, _⟩ => ⟨S10000x7, .f32⟩
  | .local _ .vmem, ⟨14, _⟩ => ⟨S10000x7, .f32⟩
  | .local _ .vmem, ⟨15, _⟩ => ⟨S10000x7, .f32⟩
  | .local _ .vmem, ⟨16, _⟩ => ⟨S10000x7, .f32⟩
  | .local _ .vmem, ⟨17, _⟩ => ⟨S1x7, .f32⟩
  | .local _ .vmem, ⟨18, _⟩ => ⟨S10000x7, .f32⟩
  | .local _ .vmem, ⟨19, _⟩ => ⟨S10000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x7 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x7 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x7 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x7 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S4000x16_S4000x16_0_0 : ∀ a, (![0, 0] : Fin 2 → Nat) a + S4000x16.size a ≤ S4000x16.size a
  h_S4000x16 : 0 < S4000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x7_S16x7_0_0 : ∀ a, (![0, 0] : Fin 2 → Nat) a + S16x7.size a ≤ S16x7.size a
  h_S16x7 : 0 < S16x7.numel
  inb_S10000x7_S10000x7_0_0 : ∀ a, (![0, 0] : Fin 2 → Nat) a + S10000x7.size a ≤ S10000x7.size a
  h_S10000x7 : 0 < S10000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  shapeCasts_S7_S1x7 : S7.ShapeCasts S1x7
  shapeCasts_S10000x7_S10000x7 : S10000x7.ShapeCasts S10000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S10000x7 : S1x7.Broadcasts S10000x7
  reduces_S10000x7_S10000 : S10000x7.Reduces [1] S10000
  shapeCasts_S10000_S10000x1 : S10000.ShapeCasts S10000x1
  broadcasts_S10000x1_S10000x7 : S10000x1.Broadcasts S10000x7
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x512_S512x16_S4000x16_1_0_0_1_n_n_wf : DotDims.WF S4000x512 S512x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x7_S10000x7_1_0_0_1_n_n_wf : DotDims.WF S10000x16 S16x7 S10000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x7.size a ≤ S16x7.size a
  hwx2_1 : ∀ i : grid2.Coords, EltTy.bits .f32 = 32 ∨ (Rect.block (s := S16x7) S16x7.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x7.size a ≤ S100000x7.size a
  hwx2_2 : ∀ i : grid2.Coords, EltTy.bits .f32 = 32 ∨ (Rect.block (s := S100000x7) S10000x7.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x7.size a ≤ S100000x7.size a
  hwx3_0 : ∀ i : grid3.Coords, EltTy.bits .f32 = 32 ∨ (Rect.block (s := S100000x7) S10000x7.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x7.size a ≤ S1x7.size a
  hwx3_1 : ∀ i : grid3.Coords, EltTy.bits .f32 = 32 ∨ (Rect.block (s := S1x7) S1x7.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x7.size a ≤ S100000x7.size a
  hwx3_2 : ∀ i : grid3.Coords, EltTy.bits .f32 = 32 ∨ (Rect.block (s := S100000x7) S10000x7.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x512_S512x16_S4000x16_1_0_0_1_n_n : DotDims S4000x512 S512x16 S4000x16 where
  lhsContracting := [1]
  rhsContracting := [0]
  lhsNonContracting := [0]
  rhsNonContracting := [1]
  lhsBatch := []
  rhsBatch := []
  wf := dot_S4000x512_S512x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x7_S10000x7_1_0_0_1_n_n : DotDims S10000x16 S16x7 S10000x7 where
  lhsContracting := [1]
  rhsContracting := [0]
  lhsNonContracting := [0]
  rhsNonContracting := [1]
  lhsBatch := []
  rhsBatch := []
  wf := dot_S10000x16_S16x7_S10000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S16x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x7.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S10000x7.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x7.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S10000x7.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S512x16 : Shape := ⟨2, ![512, 16]⟩
abbrev S16 : Shape := ⟨1, ![16]⟩
abbrev S16x7 : Shape := ⟨2, ![16, 7]⟩
abbrev S7 : Shape := ⟨1, ![7]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 141
  | .vmem => 0
  | .smem => 0
  | _ => 0

abbrev hbmTy0_0 (i : Nat) : BufTy := match i % 128 with
  | 0 => ⟨S100000x512, .f32⟩
  | 1 => ⟨S512x16, .f32⟩
  | 2 => ⟨S16, .f32⟩
  | 3 => ⟨S16x7, .f32⟩
  | 4 => ⟨S7, .f32⟩
  | 5 => ⟨S2x3200000, .i32⟩
  | 6 => ⟨S100000, .i32⟩
  | 7 => ⟨S1x3200000, .i32⟩
  | 8 => ⟨S3200000, .i32⟩
  | 9 => ⟨S3300000, .i32⟩
  | 10 => ⟨S1x3200000, .i32⟩
  | 11 => ⟨S3200000, .i32⟩
  | 12 => ⟨S3300000, .i32⟩
  | 13 => ⟨S100000x16, .f32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S3300000x1, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x16, .f32⟩
  | 59 => ⟨S3300000x16, .f32⟩
  | 60 => ⟨S3300000x16, .f32⟩
  | 61 => ⟨S_, .f32⟩
  | 62 => ⟨S100000x16, .f32⟩
  | 63 => ⟨S3300000x1, .i32⟩
  | 64 => ⟨S100000x16, .f32⟩
  | 65 => ⟨S1x16, .f32⟩
  | 66 => ⟨S100000x16, .f32⟩
  | 67 => ⟨S100000x16, .f32⟩
  | 68 => ⟨S_, .f32⟩
  | 69 => ⟨S100000x16, .f32⟩
  | 70 => ⟨S100000x16, .f32⟩
  | 71 => ⟨S100000x7, .f32⟩
  | 72 => ⟨S_, .f32⟩
  | 73 => ⟨S3300000, .f32⟩
  | 74 => ⟨S_, .f32⟩
  | 75 => ⟨S100000, .f32⟩
  | 76 => ⟨S3300000x1, .i32⟩
  | 77 => ⟨S100000, .f32⟩
  | 78 => ⟨S_, .f32⟩
  | 79 => ⟨S100000, .f32⟩
  | 80 => ⟨S100000, .i1⟩
  | 81 => ⟨S_, .f32⟩
  | 82 => ⟨S100000, .f32⟩
  | 83 => ⟨S100000, .f32⟩
  | 84 => ⟨S_, .f32⟩
  | 85 => ⟨S_, .f32⟩
  | 86 => ⟨S100000, .f32⟩
  | 87 => ⟨S100000, .f32⟩
  | 88 => ⟨S_, .i32⟩
  | 89 => ⟨S3300000, .i32⟩
  | 90 => ⟨S3300000, .i1⟩
  | 91 => ⟨S_, .i32⟩
  | 92 => ⟨S3300000, .i32⟩
  | 93 => ⟨S3300000, .i32⟩
  | 94 => ⟨S3300000, .i32⟩
  | 95 => ⟨S3300000x1, .i32⟩
  | 96 => ⟨S3300000, .f32⟩
  | 97 => ⟨S_, .i32⟩
  | 98 => ⟨S3300000, .i32⟩
  | 99 => ⟨S3300000, .i1⟩
  | 100 => ⟨S_, .i32⟩
  | 101 => ⟨S3300000, .i32⟩
  | 102 => ⟨S3300000, .i32⟩
  | 103 => ⟨S3300000, .i32⟩
  | 104 => ⟨S3300000x1, .i32⟩
  | 105 => ⟨S3300000, .f32⟩
  | 106 => ⟨S3300000, .f32⟩
  | 107 => ⟨S3300000x1, .f32⟩
  | 108 => ⟨S_, .i32⟩
  | 109 => ⟨S3300000, .i32⟩
  | 110 => ⟨S3300000, .i1⟩
  | 111 => ⟨S_, .i32⟩
  | 112 => ⟨S3300000, .i32⟩
  | 113 => ⟨S3300000, .i32⟩
  | 114 => ⟨S3300000, .i32⟩
  | 115 => ⟨S3300000x1, .i32⟩
  | 116 => ⟨S3300000x7, .f32⟩
  | 117 => ⟨S3300000x7, .f32⟩
  | 118 => ⟨S3300000x7, .f32⟩
  | 119 => ⟨S_, .f32⟩
  | 120 => ⟨S100000x7, .f32⟩
  | 121 => ⟨S3300000x1, .i32⟩
  | 122 => ⟨S100000x7, .f32⟩
  | 123 => ⟨S1x7, .f32⟩
  | 124 => ⟨S100000x7, .f32⟩
  | 125 => ⟨S100000x7, .f32⟩
  | 126 => ⟨S_, .f32⟩
  | 127 => ⟨S100000, .f32⟩
  | _ => ⟨S100000x512, .f32⟩

abbrev hbmTy0_1 (i : Nat) : BufTy := match i % 128 with
  | 0 => ⟨S_, .f32⟩
  | 1 => ⟨S100000, .f32⟩
  | 2 => ⟨S100000, .f32⟩
  | 3 => ⟨S100000x1, .f32⟩
  | 4 => ⟨S100000x7, .f32⟩
  | 5 => ⟨S100000x7, .f32⟩
  | 6 => ⟨S100000x7, .f32⟩
  | 7 => ⟨S_, .f32⟩
  | 8 => ⟨S100000, .f32⟩
  | 9 => ⟨S100000x1, .f32⟩
  | 10 => ⟨S100000x1, .f32⟩
  | 11 => ⟨S100000x7, .f32⟩
  | 12 => ⟨S100000x7, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_12 : Ref sig .tc := ⟨.hbm, 78, rfl⟩
abbrev main_v54 : Ref sig .tc := ⟨.hbm, 79, rfl⟩
abbrev main_v55 : Ref sig .tc := ⟨.hbm, 80, rfl⟩
abbrev main_cst_13 : Ref sig .tc := ⟨.hbm, 81, rfl⟩
abbrev main_v56 : Ref sig .tc := ⟨.hbm, 82, rfl⟩
abbrev main_v57 : Ref sig .tc := ⟨.hbm, 83, rfl⟩
abbrev main_cst_14 : Ref sig .tc := ⟨.hbm, 84, rfl⟩
abbrev main_call2_v0 : Ref sig .tc := ⟨.hbm, 85, rfl⟩
abbrev main_call2_v1 : Ref sig .tc := ⟨.hbm, 86, rfl⟩
abbrev main_v58 : Ref sig .tc := ⟨.hbm, 87, rfl⟩
abbrev main_c_15 : Ref sig .tc := ⟨.hbm, 88, rfl⟩
abbrev main_v59 : Ref sig .tc := ⟨.hbm, 89, rfl⟩
abbrev main_v60 : Ref sig .tc := ⟨.hbm, 90, rfl⟩
abbrev main_c_16 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_17 : Ref sig .tc := ⟨.hbm, 97, rfl⟩
abbrev main_v66 : Ref sig .tc := ⟨.hbm, 98, rfl⟩
abbrev main_v67 : Ref sig .tc := ⟨.hbm, 99, rfl⟩
abbrev main_c_18 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_19 : Ref sig .tc := ⟨.hbm, 108, rfl⟩
abbrev main_v75 : Ref sig .tc := ⟨.hbm, 109, rfl⟩
abbrev main_v76 : Ref sig .tc := ⟨.hbm, 110, rfl⟩
abbrev main_c_20 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_21 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_call3_cst : Ref sig .tc := ⟨.hbm, 126, rfl⟩
abbrev main_call3_v0 : Ref sig .tc := ⟨.hbm, 127, rfl⟩
abbrev main_call3_cst_0 : Ref sig .tc := ⟨.hbm, 128, rfl⟩
abbrev main_call3_v1 : Ref sig .tc := ⟨.hbm, 129, rfl⟩
abbrev main_call3_v2 : Ref sig .tc := ⟨.hbm, 130, rfl⟩
abbrev main_call3_v3 : Ref sig .tc := ⟨.hbm, 131, rfl⟩
abbrev main_call3_v4 : Ref sig .tc := ⟨.hbm, 132, rfl⟩
abbrev main_call3_v5 : Ref sig .tc := ⟨.hbm, 133, rfl⟩
abbrev main_call3_v6 : Ref sig .tc := ⟨.hbm, 134, rfl⟩
abbrev main_call3_cst_1 : Ref sig .tc := ⟨.hbm, 135, rfl⟩
abbrev main_call3_v7 : Ref sig .tc := ⟨.hbm, 136, rfl⟩
abbrev main_call3_v8 : Ref sig .tc := ⟨.hbm, 137, rfl⟩
abbrev main_call3_v9 : Ref sig .tc := ⟨.hbm, 138, rfl⟩
abbrev main_call3_v10 : Ref sig .tc := ⟨.hbm, 139, rfl⟩
abbrev main_v90 : Ref sig .tc := ⟨.hbm, 140, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.KernelRun.lean ====
/-
  The idealized kernel's run with its result named.

  The program is nine segments: stretches of host operations and four pipelined regions.  Folding the segments over
  the launch contents gives the contents of every buffer that outlives a region at each boundary; the last of
  these, after the fourth region, is what the final state holds.  The run below is the program's launch over those
  segments with the final state read at the result buffer as well as at the six arguments.
-/
import proofs.«125439_j65876208386063_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and the final state holds, in the result
    buffer, what the fold of the nine segments leaves there, and in each argument buffer what it held at launch. -/
theorem run : θ_run defs (onTc (τ := τ) (main (F := F))) ⟨m, fun _ => 0, ρ⟩ (fun r => ∀ c : Dev nD,
      r.2.mem ((c.tc : Thread nD τ).loc main_v62) = W9 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v62 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Result

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibDense.lean ====
/-
  A dense layer read at one index, on the extended reals.

  A dense layer of a network multiplies an [M, K] array of rows by a [K, N] weight, adds a length-N bias to
  every row, and clips at zero.  Written over whole arrays (the host's `dot_general`, `broadcast_in_dim`,
  `maximum`) or over one block of rows (a `matmul` into a zero accumulator, a bias viewed as one row and
  repeated, a maximum with a splat zero), the entry at row r and column c is the same expression of row r of
  the input, column c of the weight and entry c of the bias.  Each lemma below reads one such spelling at
  (r, c).  The zero the maximum is taken with is kept as the value of the all-zero word.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«125439_j65876208386063_1_alg».proof.Proof.LibRowOps

noncomputable section

namespace Cert.Dense

open Idealize.ShloMosaic Idealize.ShloMosaic.ValueIdx Cert.RowOps

/-- The value of the all-zero f32 word. -/
abbrev z : EReal := Ideal.ofBits .f32 0x00000000#32

/-! ## The host's matrix product -/

section Product

variable {M K N : Nat} {d : DotDims ⟨2, ![M, K]⟩ ⟨2, ![K, N]⟩ ⟨2, ![M, N]⟩}

/-- The host's plain matrix product at (r, c): the sum over the shared axis of the products. -/
theorem hostDot_apply (hd : IsPlain d) {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral d prec sched lhs rhs (ix2 r c) = ∑ k : Fin K, lhs (ix2 r k) * rhs (ix2 k c) := by
  rw [Ideal.dotGeneral_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Product

/-! ## A bias added to every row -/

section Bias

variable {α : Type} {a b : Nat}

/-- A length-b vector viewed as one [1, b] row and repeated over a rows reads, at (p, c), the vector at c. -/
theorem rowBias_apply (v : (⟨1, ![b]⟩ : Shape).Idx → α) (hs : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hs) hb (ix2 p c) = v (ix1 c) := by
  rw [broadcastTo_1b_ab_apply]
  exact shapeCast_apply v hs _ _ (by
    rw [Shape.rowMajor_val_one, Shape.rowMajor_val_two]
    show c.val = 0 * b + c.val
    omega)

/-- The host's spelling: the vector broadcast to [1, b] along the second axis, then to [a, b]; at (p, c) the vector at c. -/
theorem hostRowBias_apply (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl)]
  exact broadcastInDim_apply ![1] h1 v (ix2 (0 : Fin 1) c) (ix1 c) (fun ax => by
    match ax with
    | ⟨0, _⟩ =>
      show c.val = if b = 1 then 0 else c.val
      split
      · have := c.isLt; omega
      · rfl)

end Bias

/-! ## The four shapes of a layer, over whole arrays (the host's spelling) -/

section Host

variable {M K N : Nat} {d : DotDims ⟨2, ![M, K]⟩ ⟨2, ![K, N]⟩ ⟨2, ![M, N]⟩}

/-- Rows times weight plus bias, clipped at zero. -/
theorem hostEncode_apply (hd : IsPlain d) (X : FVec Ideal ⟨2, ![M, K]⟩ .f32) (W : FVec Ideal ⟨2, ![K, N]⟩ .f32)
    (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (r : Fin M) (c : Fin N) :
    maximumf (addf (Host.dotGeneral d none X W) (broadcastInDim ⟨2, ![M, N]⟩ ![0, 1] h2 (broadcastInDim ⟨2, ![1, N]⟩ ![1] h1 B)))
        (broadcastInDim ⟨2, ![M, N]⟩ ![] h0 (constant (F := Ideal) ⟨0, ![]⟩ .f32 0x00000000#32)) (ix2 r c)
      = max ((∑ k : Fin K, X (ix2 r k) * W (ix2 k c)) + B (ix1 c)) z := by
  rw [maximumf_apply, addf_apply, hostRowBias_apply, broadcastInDim_scalar_apply, constant_apply]
  exact congrArg (fun s => max (s + B (ix1 c)) z) (hostDot_apply hd none .single X W r c)

/-- Input plus bias clipped at zero, at one index. -/
theorem hostActivate_apply (X : FVec Ideal ⟨2, ![M, K]⟩ .f32) (B : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (k : Fin K) :
    maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32)) (ix2 r k)
      = max (X (ix2 r k) + B (ix1 k)) z := by
  rw [maximumf_apply, addf_apply, hostRowBias_apply, broadcastInDim_scalar_apply, constant_apply]

/-- Input plus bias clipped at zero, times weight. -/
theorem hostLayer_apply (hd : IsPlain d) (X : FVec Ideal ⟨2, ![M, K]⟩ .f32) (B : FVec Ideal ⟨1, ![K]⟩ .f32)
    (W : FVec Ideal ⟨2, ![K, N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (c : Fin N) :
    Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W (ix2 r c)
      = ∑ k : Fin K, max (X (ix2 r k) + B (ix1 k)) z * W (ix2 k c) := by
  refine (hostDot_apply hd none .single _ W r c).trans (Finset.sum_congr rfl fun k _ => ?_)
  rw [hostActivate_apply]

/-- Input plus bias clipped at zero, times weight, plus a second bias. -/
theorem hostDecode_apply (hd : IsPlain d) (X : FVec Ideal ⟨2, ![M, K]⟩ .f32) (B : FVec Ideal ⟨1, ![K]⟩ .f32)
    (W : FVec Ideal ⟨2, ![K, N]⟩ .f32) (B2 : FVec Ideal ⟨1, ![N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (g1 : (⟨1, ![N]⟩ : Shape).BroadcastsInDim ⟨2, ![1, N]⟩ ![1])
    (g2 : (⟨2, ![1, N]⟩ : Shape).BroadcastsInDim ⟨2, ![M, N]⟩ ![0, 1]) (r : Fin M) (c : Fin N) :
    addf (Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W)
        (broadcastInDim ⟨2, ![M, N]⟩ ![0, 1] g2 (broadcastInDim ⟨2, ![1, N]⟩ ![1] g1 B2)) (ix2 r c)
      = (∑ k : Fin K, max (X (ix2 r k) + B (ix1 k)) z * W (ix2 k c)) + B2 (ix1 c) := by
  rw [addf_apply, hostRowBias_apply, hostLayer_apply hd]

end Host

/-! ## The same four shapes over one block of rows (the kernel's spelling) -/

section Block

variable {M K N : Nat} {d : DotDims ⟨2, ![M, K]⟩ ⟨2, ![K, N]⟩ ⟨2, ![M, N]⟩}

/-- Rows times weight plus bias, clipped at zero. -/
theorem blockEncode_apply (hd : IsPlain d) (x : FVec Ideal ⟨2, ![M, K]⟩ .f32) (w : FVec Ideal ⟨2, ![K, N]⟩ .f32)
    (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (r : Fin M) (c : Fin N) :
    maximumf (addf (matmul d none x w (constant ⟨2, ![M, N]⟩ .f32 0x00000000#32))
        (broadcastTo ⟨2, ![M, N]⟩ (shapeCast ⟨2, ![1, N]⟩ b hs) hb))
        (broadcast ⟨2, ![M, N]⟩ (Scalar.ofBits (F := Ideal) .f32 0x00000000#32)) (ix2 r c)
      = max ((∑ k : Fin K, x (ix2 r k) * w (ix2 k c)) + b (ix1 c)) z := by
  rw [maximumf_apply, addf_apply, rowBias_apply, broadcast_apply]
  exact congrArg (fun s => max (s + b (ix1 c)) z) (matmul_zero_apply hd none x w r c)

/-- Input plus bias clipped at zero, at one index. -/
theorem blockActivate_apply (x : FVec Ideal ⟨2, ![M, K]⟩ .f32) (b : FVec Ideal ⟨1, ![K]⟩ .f32)
    (hs : (⟨1, ![K]⟩ : Shape).ShapeCasts ⟨2, ![1, K]⟩) (hb : (⟨2, ![1, K]⟩ : Shape).Broadcasts ⟨2, ![M, K]⟩)
    (r : Fin M) (k : Fin K) :
    maximumf (addf x (broadcastTo ⟨2, ![M, K]⟩ (shapeCast ⟨2, ![1, K]⟩ b hs) hb))
        (broadcast ⟨2, ![M, K]⟩ (Scalar.ofBits (F := Ideal) .f32 0x00000000#32)) (ix2 r k)
      = max (x (ix2 r k) + b (ix1 k)) z := by
  rw [maximumf_apply, addf_apply, rowBias_apply, broadcast_apply]
  rfl

/-- Input plus bias clipped at zero, times weight. -/
theorem blockLayer_apply (hd : IsPlain d) (x : FVec Ideal ⟨2, ![M, K]⟩ .f32) (b : FVec Ideal ⟨1, ![K]⟩ .f32)
    (w : FVec Ideal ⟨2, ![K, N]⟩ .f32)
    (hs : (⟨1, ![K]⟩ : Shape).ShapeCasts ⟨2, ![1, K]⟩) (hb : (⟨2, ![1, K]⟩ : Shape).Broadcasts ⟨2, ![M, K]⟩)
    (r : Fin M) (c : Fin N) :
    matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32) (ix2 r c)
      = ∑ k : Fin K, max (x (ix2 r k) + b (ix1 k)) z * w (ix2 k c) := by
  refine (matmul_zero_apply hd none _ w r c).trans (Finset.sum_congr rfl fun k _ => ?_)
  rw [blockActivate_apply]

/-- Input plus bias clipped at zero, times weight, plus a second bias. -/
theorem blockDecode_apply (hd : IsPlain d) (x : FVec Ideal ⟨2, ![M, K]⟩ .f32) (b : FVec Ideal ⟨1, ![K]⟩ .f32)
    (w : FVec Ideal ⟨2, ![K, N]⟩ .f32) (b2 : FVec Ideal ⟨1, ![N]⟩ .f32)
    (hs : (⟨1, ![K]⟩ : Shape).ShapeCasts ⟨2, ![1, K]⟩) (hb : (⟨2, ![1, K]⟩ : Shape).Broadcasts ⟨2, ![M, K]⟩)
    (gs : (⟨1, ![N]⟩ : Shape).ShapeCasts ⟨2, ![1, N]⟩) (gb : (⟨2, ![1, N]⟩ : Shape).Broadcasts ⟨2, ![M, N]⟩)
    (r : Fin M) (c : Fin N) :
    addf (matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32))
        (broadcastTo ⟨2, ![M, N]⟩ (shapeCast ⟨2, ![1, N]⟩ b2 gs) gb) (ix2 r c)
      = (∑ k : Fin K, max (x (ix2 r k) + b (ix1 k)) z * w (ix2 k c)) + b2 (ix1 c) := by
  rw [addf_apply, rowBias_apply, blockLayer_apply hd]

end Block

end Cert.Dense

end
-- ==== Proof.LibRowLogSoftmax.lean ====
/-
  A row-wise log-softmax of an [a, b] vector, read at one index on the extended reals.

  A kernel body that normalises the rows of an [a, b] vector L to log-probabilities takes the maximum m of each row
  (a reduction along the second axis, viewed as an [a, 1] column and repeated along the row), exponentiates L - m,
  sums each row, takes the logarithm of the sum, adds it to m, repeats that column along the row and subtracts it
  from L.  At (p, q) this is L(p, q) - (m_p + log Σ_k exp(L(p, k) - m_p)), where m_p is the fold of `max` over row p
  from the value of the starting word.  Every step only moves coordinates or acts entry by entry, so no entry has to
  be finite.
-/
import Idealize.ShloMosaic.PureOps.Ideal.Laws
import Idealize.ShloMosaic.Lib.ValueIdx
import Idealize.ShloMosaic.Lib.Pipeline.Value
import proofs.«125439_j65876208386063_1_alg».proof.Proof.LibRowOps

noncomputable section

namespace Cert.RowLogSoftmax

open Idealize.ShloMosaic Idealize.ShloMosaic.ValueIdx Cert.RowOps

variable {a b : Nat}

/-- The maximum of row p of L, folded from the value of the word the reduction starts from. -/
def rowMaxFrom (acc : BitVec (FTy.f32).bits) (L : FVec Ideal ⟨2, ![a, b]⟩ .f32) (p : Fin a) : EReal :=
  (Finset.univ : Finset (Fin b)).fold max (Ideal.ofBits .f32 acc) (fun k => L (ix2 p k))

theorem exp_apply {s : Shape} {φ : FTy} (x : FVec Ideal s φ) (i : s.Idx) : exp x i = Ideal.exp (x i) := rfl

theorem log_apply {s : Shape} {φ : FTy} (x : FVec Ideal s φ) (i : s.Idx) : log x i = Ideal.log (x i) := rfl

/-- The row maximum as an [a, 1] column repeated along the row reads, at (p, k), the maximum of row p. -/
theorem maxColumn_apply (L : FVec Ideal ⟨2, ![a, b]⟩ .f32) (accM : BitVec (FTy.f32).bits)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩)
    (hφ : FKind.Formats .f32) (hM : accM = FKind.maximumf.neutral .f32 hφ) (p : Fin a) (k : Fin b) :
    broadcastTo ⟨2, ![a, b]⟩ (shapeCast ⟨2, ![a, 1]⟩ (multiReduction .maximumf [1] ⟨1, ![a]⟩ L accM hr hφ hM) hc) hb (ix2 p k)
      = rowMaxFrom accM L p := by
  rw [spread_apply, column_apply, rowMax_apply]
  rfl

/-- The log-softmax in the kernel's spelling at (p, q). -/
theorem kernel_apply (L : FVec Ideal ⟨2, ![a, b]⟩ .f32) (accM accS : BitVec (FTy.f32).bits)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩)
    (hφ : FKind.Formats .f32) (hM : accM = FKind.maximumf.neutral .f32 hφ) (hS : accS = FKind.add.neutral .f32 hφ)
    (p : Fin a) (q : Fin b) :
    subf L (broadcastTo ⟨2, ![a, b]⟩
        (addf (shapeCast ⟨2, ![a, 1]⟩ (multiReduction .maximumf [1] ⟨1, ![a]⟩ L accM hr hφ hM) hc)
          (log (shapeCast ⟨2, ![a, 1]⟩ (multiReduction .add [1] ⟨1, ![a]⟩
            (exp (subf L (broadcastTo ⟨2, ![a, b]⟩
              (shapeCast ⟨2, ![a, 1]⟩ (multiReduction .maximumf [1] ⟨1, ![a]⟩ L accM hr hφ hM) hc) hb)))
            accS hr hφ hS) hc))) hb) (ix2 p q)
      = L (ix2 p q) - (rowMaxFrom accM L p + Ideal.log (∑ k : Fin b, Ideal.exp (L (ix2 p k) - rowMaxFrom accM L p))) := by
  rw [subf_apply, spread_apply, addf_apply, column_apply, rowMax_apply, log_apply, column_apply, rowSum_apply]
  refine congrArg (fun s => L (ix2 p q) - (rowMaxFrom accM L p + Ideal.log s)) (Finset.sum_congr rfl fun k _ => ?_)
  rw [exp_apply, subf_apply, maxColumn_apply]

end Cert.RowLogSoftmax

end
-- ==== Proof.LibRowLogSoftmaxShift.lean ====
/-
  A row-wise log-softmax in the "subtract the maximum first" spelling, read at one index on the extended reals.

  A kernel body that normalises the rows of an [a, b] vector L to log-probabilities may first subtract from every
  row its maximum m (a reduction along the second axis, viewed as an [a, 1] column and repeated along the row),
  giving the shifted rows S = L - m; then exponentiate S, sum each row, take the logarithm of the sum, repeat that
  column along the row and subtract it from S.  At (p, q) this is (L(p, q) - m_p) - log Σ_k exp(L(p, k) - m_p),
  where m_p is the fold of `max` over row p from the value of the starting word.  Every step only moves
  coordinates or acts entry by entry, so no entry has to be finite.
-/
import Idealize.ShloMosaic.PureOps.Ideal.Laws
import Idealize.ShloMosaic.Lib.ValueIdx
import Idealize.ShloMosaic.Lib.Pipeline.Value
import proofs.«125439_j65876208386063_1_alg».proof.Proof.LibRowOps
import proofs.«125439_j65876208386063_1_alg».proof.Proof.LibRowLogSoftmax

noncomputable section

namespace Cert.RowLogSoftmaxShift

open Idealize.ShloMosaic Idealize.ShloMosaic.ValueIdx Cert.RowOps Cert.RowLogSoftmax

variable {a b : Nat}

/-- The rows with their maximum subtracted, in the kernel's spelling, at (p, k). -/
theorem shifted_apply (L : FVec Ideal ⟨2, ![a, b]⟩ .f32) (accM : BitVec (FTy.f32).bits)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩)
    (hφ : FKind.Formats .f32) (hM : accM = FKind.maximumf.neutral .f32 hφ) (p : Fin a) (k : Fin b) :
    subf L (broadcastTo ⟨2, ![a, b]⟩ (shapeCast ⟨2, ![a, 1]⟩ (multiReduction .maximumf [1] ⟨1, ![a]⟩ L accM hr hφ hM) hc) hb) (ix2 p k)
      = L (ix2 p k) - rowMaxFrom accM L p := by
  rw [subf_apply, maxColumn_apply]

/-- The log-softmax in the kernel's "subtract the maximum first" spelling at (p, q). -/
theorem kernel_apply (L : FVec Ideal ⟨2, ![a, b]⟩ .f32) (accM accS : BitVec (FTy.f32).bits)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩)
    (hφ : FKind.Formats .f32) (hM : accM = FKind.maximumf.neutral .f32 hφ) (hS : accS = FKind.add.neutral .f32 hφ)
    (p : Fin a) (q : Fin b) :
    subf (subf L (broadcastTo ⟨2, ![a, b]⟩ (shapeCast ⟨2, ![a, 1]⟩ (multiReduction .maximumf [1] ⟨1, ![a]⟩ L accM hr hφ hM) hc) hb))
        (broadcastTo ⟨2, ![a, b]⟩
          (log (shapeCast ⟨2, ![a, 1]⟩ (multiReduction .add [1] ⟨1, ![a]⟩
            (exp (subf L (broadcastTo ⟨2, ![a, b]⟩
              (shapeCast ⟨2, ![a, 1]⟩ (multiReduction .maximumf [1] ⟨1, ![a]⟩ L accM hr hφ hM) hc) hb)))
            accS hr hφ hS) hc)) hb) (ix2 p q)
      = (L (ix2 p q) - rowMaxFrom accM L p) - Ideal.log (∑ k : Fin b, Ideal.exp (L (ix2 p k) - rowMaxFrom accM L p)) := by
  rw [subf_apply, shifted_apply, spread_apply, log_apply, column_apply, rowSum_apply]
  refine congrArg (fun s => (L (ix2 p q) - rowMaxFrom accM L p) - Ideal.log s) (Finset.sum_congr rfl fun k _ => ?_)
  rw [exp_apply, shifted_apply]

/-- Taking the maximum once more with the value the fold started from changes nothing. -/
theorem max_rowMaxFrom (accM : BitVec (FTy.f32).bits) (L : FVec Ideal ⟨2, ![a, b]⟩ .f32) (p : Fin a) :
    max (Ideal.ofBits .f32 accM) (rowMaxFrom accM L p) = rowMaxFrom accM L p :=
  max_eq_right ((Finset.le_fold_max _).mpr (Or.inl le_rfl))

end Cert.RowLogSoftmaxShift

end
-- ==== Proof.Payloads.lean ====
/-
  What each of the four kernel bodies stores, read at one index on the extended reals.

  Every body works on a block of rows.  The two products store, at row p and column q, the sum over the shared
  axis of the block's row p times the weight's column q (the operands' change of format is the identity on the
  extended reals, and the accumulator starts at zero).  The bias-and-clip body stores the maximum of zero and the
  block's entry plus the bias entry of its column.  The normalising body adds the bias to the row, subtracts the
  row's maximum, and subtracts the logarithm of the sum of the exponentials of the shifted row.  In every case the
  stored entry depends on row p of the block only.
-/
import proofs.«125439_j65876208386063_1_alg».proof.Proof.Gen.KernelIdeal.Skeleton
import proofs.«125439_j65876208386063_1_alg».proof.Proof.LibRowOps
import proofs.«125439_j65876208386063_1_alg».proof.Proof.LibDense
import proofs.«125439_j65876208386063_1_alg».proof.Proof.LibRowLogSoftmax
import proofs.«125439_j65876208386063_1_alg».proof.Proof.LibRowLogSoftmaxShift
import Idealize.ShloMosaic.Lib.ValueLayout

noncomputable section

namespace Cert.Rows

open Idealize.ShloMosaic Idealize.ShloMosaic.ValueIdx

/-- The value of the all-zero f32 word. -/
abbrev z : EReal := Ideal.ofBits .f32 0x00000000#32

/-- The value of the f32 word the row maximum starts from. -/
abbrev bottom : EReal := Ideal.ofBits .f32 0xFF800000#32

/-- The log-softmax of one row: each entry minus the row's maximum, minus the logarithm of the sum of the
    exponentials of the entries so shifted.  The maximum is folded from the value of the starting word. -/
def logSoftmaxRow {b : Nat} (row : Fin b → EReal) (q : Fin b) : EReal :=
  (row q - (Finset.univ : Finset (Fin b)).fold max bottom row)
    - Ideal.log (∑ k : Fin b, Ideal.exp (row k - (Finset.univ : Finset (Fin b)).fold max bottom row))

/-- A block of rows plus a one-row bias repeated over the rows, in the kernel's spelling, at (p, k). -/
theorem biasedRows_apply {a b : Nat} (x : FVec Ideal ⟨2, ![a, b]⟩ .f32) (v : FVec Ideal ⟨2, ![1, b]⟩ .f32)
    (h1 : (⟨2, ![a, b]⟩ : Shape).ShapeCasts ⟨2, ![a, b]⟩) (h2 : (⟨2, ![1, b]⟩ : Shape).ShapeCasts ⟨2, ![1, b]⟩)
    (hb : (⟨2, ![1, b]⟩ : Shape).Broadcasts ⟨2, ![a, b]⟩) (p : Fin a) (k : Fin b) :
    addf (shapeCast ⟨2, ![a, b]⟩ x h1) (broadcastTo ⟨2, ![a, b]⟩ (shapeCast ⟨2, ![1, b]⟩ v h2) hb) (ix2 p k)
      = x (ix2 p k) + v (ix2 (0 : Fin 1) k) := by
  rw [addf_apply, shapeCast_self, broadcastTo_1b_ab_apply, shapeCast_self]

end Cert.Rows

namespace Cert.KernelIdeal.Rows

open Cert.KernelIdeal Cert.KernelIdeal.Gen Cert.Rows Idealize.ShloMosaic Idealize.ShloMosaic.ValueIdx

theorem plain0 : Cert.RowOps.IsPlain dot_S4000x512_S512x16_S4000x16_1_0_0_1_n_n := ⟨rfl, rfl, rfl, rfl, rfl, rfl⟩

theorem plain2 : Cert.RowOps.IsPlain dot_S10000x16_S16x7_S10000x7_1_0_0_1_n_n := ⟨rfl, rfl, rfl, rfl, rfl, rfl⟩

/-- The first product's body: row p of the block times column q of the weight. -/
theorem pay0_apply (x0 : Vec Ideal S4000x512 .f32) (x1 : Vec Ideal S512x16 .f32) (p : Fin 4000) (q : Fin 16) :
    k0_pay1 (F := Ideal) x0 x1 (ix2 p q) = ∑ k : Fin 512, x0 (ix2 p k) * x1 (ix2 k q) := by
  unfold k0_pay1
  exact (Cert.RowOps.matmul_zero_apply plain0 none (truncf .bf16 x0 bitsLt_bf16_f32) (truncf .bf16 x1 bitsLt_bf16_f32) p q).trans
    (Finset.sum_congr rfl fun k _ => rfl)

/-- The bias-and-clip body: the entry plus its column's bias, clipped at zero. -/
theorem pay1_apply (x0 : Vec Ideal S10000x16 .f32) (x1 : Vec Ideal S1x16 .f32) (p : Fin 10000) (q : Fin 16) :
    k1_pay1 (F := Ideal) x0 x1 (ix2 p q) = max (x0 (ix2 p q) + x1 (ix2 (0 : Fin 1) q)) z := by
  unfold k1_pay1
  rw [maximumf_apply, biasedRows_apply (a := 10000) (b := 16) x0 x1, broadcast_apply]
  rfl

/-- The second product's body: row p of the block times column q of the weight. -/
theorem pay2_apply (x0 : Vec Ideal S10000x16 .f32) (x1 : Vec Ideal S16x7 .f32) (p : Fin 10000) (q : Fin 7) :
    k2_pay1 (F := Ideal) x0 x1 (ix2 p q) = ∑ k : Fin 16, x0 (ix2 p k) * x1 (ix2 k q) := by
  unfold k2_pay1
  refine (Cert.RowOps.matmul_zero_apply plain2 none
    (truncf .bf16 (shapeCast S10000x16 x0 shapeCasts_S10000x16_S10000x16) bitsLt_bf16_f32) (truncf .bf16 x1 bitsLt_bf16_f32) p q).trans
    (Finset.sum_congr rfl fun k _ => ?_)
  rw [truncf_apply, truncf_apply, shapeCast_self]

/-- The normalising body: the log-softmax of row p of the block plus the bias row. -/
theorem pay3_apply (x0 : Vec Ideal S10000x7 .f32) (x1 : Vec Ideal S1x7 .f32) (p : Fin 10000) (q : Fin 7) :
    k3_pay1 (F := Ideal) x0 x1 (ix2 p q) = logSoftmaxRow (fun k => x0 (ix2 p k) + x1 (ix2 (0 : Fin 1) k)) q := by
  unfold k3_pay1
  refine (Cert.RowLogSoftmaxShift.kernel_apply (a := 10000) (b := 7)
    (addf (shapeCast S10000x7 x0 shapeCasts_S10000x7_S10000x7)
      (broadcastTo S10000x7 (shapeCast S1x7 x1 shapeCasts_S1x7_S1x7) broadcasts_S1x7_S10000x7))
    0xFF800000#32 0x00000000#32 reduces_S10000x7_S10000 shapeCasts_S10000_S10000x1 broadcasts_S10000x1_S10000x7
    (.inl rfl) rfl rfl p q).trans ?_
  have hL := fun k : Fin 7 => biasedRows_apply (a := 10000) (b := 7) x0 x1 shapeCasts_S10000x7_S10000x7
    shapeCasts_S1x7_S1x7 broadcasts_S1x7_S10000x7 p k
  unfold logSoftmaxRow Cert.RowLogSoftmax.rowMaxFrom
  simp only [hL]

end Cert.KernelIdeal.Rows

end
-- ==== Proof.Region0.lean ====
/-
  The first product region as one function of whole arrays.

  The region walks the [100000, 512] array in twenty-five blocks of 4000 rows and multiplies each block by the whole
  [512, 16] weight.  A row of a block is a row of the array, so the blocks of the output are the blocks of the one
  product of the whole array with the weight; they tile the output array.
-/
import proofs.«125439_j65876208386063_1_alg».proof.Proof.Gen.KernelIdeal.Frame
import proofs.«125439_j65876208386063_1_alg».proof.Proof.Payloads
import Idealize.ShloMosaic.Lib.Pipeline.Value

set_option maxRecDepth 16384

noncomputable section

namespace Cert.KernelIdeal.Region0

open Cert.KernelIdeal Cert.KernelIdeal.Gen Cert.KernelIdeal.Rows Cert.Rows
open Idealize.ShloMosaic Idealize.ShloMosaic.TcCoe Idealize.ShloMosaic.ValueIdx Idealize.SL.Sem
open Idealize.ShloMosaic.Pipeline (Dat Cfg Window)

/-- The product of the whole input array with the weight: at (r, q) the sum over the shared axis. -/
def G (A : FVec Ideal S100000x512 .f32) (W : FVec Ideal S512x16 .f32) : FVec Ideal S100000x16 .f32 := fun i =>
  ∑ k : Fin 512, A (ix2 (⟨(i 0).val, idx2_lt0 i⟩ : Fin 100000) k) * W (ix2 k (⟨(i 1).val, idx2_lt1 i⟩ : Fin 16))

theorem G_apply (A : FVec Ideal S100000x512 .f32) (W : FVec Ideal S512x16 .f32) (r : Fin 100000) (q : Fin 16) :
    G A W (ix2 r q) = ∑ k : Fin 512, A (ix2 r k) * W (ix2 k q) := rfl

theorem hz : (![0, 0] : Fin 2 → Nat) = fun _ => 0 := funext fun a => by fin_cases a <;> rfl

/-- The printed index maps over the grid: the input block and the output block move together along the rows, the
    second operand's block never moves, and no block index leaves its range. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 24 :=
  (by decide +kernel : ∀ t : Fin grid0.N, _)

/-- Every block of rows is some grid point's. -/
theorem idx_onto : ∀ q0 : Fin 25, ∃ t : Fin cfg0.N, win0_2.index t (0 : Fin 2) = q0.val :=
  (by decide +kernel : ∀ q0 : Fin 25, ∃ t : Fin grid0.N, win0_2.index t (0 : Fin 2) = q0.val)

/-- The row of the whole array that row p of point t's blocks is. -/
def rowAt (t : Fin cfg0.N) (p : Fin 4000) : Fin 100000 :=
  ⟨win0_2.index t (0 : Fin 2) * 4000 + p.val, by
    have h := (idx_facts t).2.2.2.2.2
    have hp : p.val < 4000 := p.isLt
    omega⟩

/-- Where an entry of point t's output block sits in the output array. -/
theorem embOut (t : Fin cfg0.N) (p : Fin 4000) (q : Fin 16) :
    ((cfg0.win 2).blk t).view.emb (ix2 p q) = ix2 (rowAt t p) q := by
  obtain ⟨e0, e1, e2, e3, e4, e5⟩ := idx_facts t
  funext a; apply Fin.ext
  match a with
  | ⟨0, _⟩ => show win0_2.index t (0 : Fin 2) * 4000 + 1 * p.val = win0_2.index t (0 : Fin 2) * 4000 + p.val; omega
  | ⟨1, _⟩ => show win0_2.index t (1 : Fin 2) * 16 + 1 * q.val = q.val; omega

/-- Where an entry of point t's input block sits in the input array. -/
theorem embIn (t : Fin cfg0.N) (p : Fin 4000) (k : Fin 512) :
    ((cfg0.win 0).blk t).view.emb (ix2 p k) = ix2 (rowAt t p) k := by
  obtain ⟨e0, e1, e2, e3, e4, e5⟩ := idx_facts t
  funext a; apply Fin.ext
  match a with
  | ⟨0, _⟩ => show win0_0.index t (0 : Fin 2) * 4000 + 1 * p.val = win0_2.index t (0 : Fin 2) * 4000 + p.val; omega
  | ⟨1, _⟩ => show win0_0.index t (1 : Fin 2) * 512 + 1 * k.val = k.val; omega

/-- The second operand's block is the whole of its array. -/
theorem embSide (t : Fin cfg0.N) (u : Fin 512) (v : Fin 16) :
    ((cfg0.win 1).blk t).view.emb (ix2 u v) = ix2 u v := by
  obtain ⟨e0, e1, e2, e3, e4, e5⟩ := idx_facts t
  funext a; apply Fin.ext
  match a with
  | ⟨0, _⟩ => show win0_1.index t (0 : Fin 2) * 512 + 1 * u.val = u.val; omega
  | ⟨1, _⟩ => show win0_1.index t (1 : Fin 2) * 16 + 1 * v.val = v.val; omega

variable (V : (c : Dev nD) → (b : Ref sig .tc) → Buf (Elt Ideal) ((c : Thread nD τ).loc b))

/-- An input block's entry is the input array's entry at the block's place. -/
theorem readIn (c : Dev nD) (t : Fin cfg0.N) (p : Fin 4000) (k : Fin 512) :
    iblk0 V c 0 t (ix2 p k) = V c (Pipeline.arrRef spec0 0) (ix2 (rowAt t p) k) := by
  show V c (Pipeline.arrRef spec0 0) (((cfg0.win 0).blk t).view.emb (ix2 p k)) = _
  rw [embIn]

theorem readSide (c : Dev nD) (t : Fin cfg0.N) (u : Fin 512) (v : Fin 16) :
    iblk0 V c 1 t (ix2 u v) = V c (Pipeline.arrRef spec0 1) (ix2 u v) := by
  show V c (Pipeline.arrRef spec0 1) (((cfg0.win 1).blk t).view.emb (ix2 u v)) = _
  rw [embSide]

/-- What grid point t writes back is its block of the whole-array function of the arrays the region found. -/
theorem flushed_eq (c : Dev nD) (t : Fin cfg0.N) :
    (dat0 V c).flushed 2 t
      = ((cfg0.win 2).blk t).view.read (Elt Ideal) (G (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S4000x512) hz, View.ld_unit_zero (S := S512x16) hz]
  funext j
  obtain ⟨p, q, rfl⟩ : ∃ (p : Fin 4000) (q : Fin 16), j = ix2 p q := ⟨j 0, j 1, eq_ix2 j⟩
  refine (pay0_apply (iblk0 V c 0 t) (iblk0 V c 1 t) p q).trans ?_
  show _ = G (V c (Pipeline.arrRef spec0 0)) (V c (Pipeline.arrRef spec0 1)) (((cfg0.win 2).blk t).view.emb (ix2 p q))
  rw [embOut, G_apply]
  exact Finset.sum_congr rfl fun k _ => by rw [readIn, readSide]

/-- An index of the output array is in point t's block iff each coordinate is in the block's range on its axis. -/
theorem mem_blk (t : Fin cfg0.N) (i : S100000x16.Idx) :
    i ∈ ((cfg0.win 2).blk t).view.set ↔ ∀ a : Fin 2, win0_2.index t a * S4000x16.size a ≤ (i a).val ∧ (i a).val < win0_2.index t a * S4000x16.size a + S4000x16.size a := by
  show i ∈ ((View.whole main_v31).slice (win0_2.rect t)).set ↔ _
  rw [View.set_slice_whole, Rect.mem_set_unit]
  exact Iff.rfl

/-- The output blocks cover the output array: row r is in the block of the point whose block index is r / 4000. -/
theorem cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := idx_onto ⟨(i 0).val / 4000, by omega⟩
  have q0 : win0_2.index t (0 : Fin 2) = (i 0).val / 4000 := ht
  obtain ⟨e0, e1, e2, e3, e4, e5⟩ := idx_facts t
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 16 ≤ (i 1).val ∧ (i 1).val < win0_2.index t (1 : Fin 2) * 16 + 16; omega

/-- The output array after the region: the whole-array function of the two arrays the region found. -/
theorem final (c : Dev nD) :
    (dat0 V c).arrAt 2 cfg0.N = G (V c (Pipeline.arrRef spec0 0)) (V c (Pipeline.arrRef spec0 1)) :=
  (dat0 V c).arrAt_eq_of_cover 2 _ (fun t _ => flushed_eq V c t) cover

/-- The input arrays after the region are as the region found them. -/
theorem kept0 (c : Dev nD) : (dat0 V c).arrAt 0 cfg0.N = V c (Pipeline.arrRef spec0 0) :=
  ((dat0 V c).arrAt_in 0 rfl cfg0.N).trans (A_eq0 V c 0)

theorem kept1 (c : Dev nD) : (dat0 V c).arrAt 1 cfg0.N = V c (Pipeline.arrRef spec0 1) :=
  ((dat0 V c).arrAt_in 1 rfl cfg0.N).trans (A_eq0 V c 1)

end Cert.KernelIdeal.Region0

end
-- ==== Proof.Region1.lean ====
/-
  The bias-and-clip region as one function of whole arrays.

  The region walks the [100000, 16] array in ten blocks of 10000 rows.  At each grid point the body stores, at every
  entry of the block, the maximum of zero and the entry plus its column's bias; the blocks tile the array, so after
  the region the output array holds that expression at every index of the whole input array.
-/
import proofs.«125439_j65876208386063_1_alg».proof.Proof.Gen.KernelIdeal.Frame
import proofs.«125439_j65876208386063_1_alg».proof.Proof.Payloads
import Idealize.ShloMosaic.Lib.Pipeline.Value

set_option maxRecDepth 16384

noncomputable section

namespace Cert.KernelIdeal.Region1

open Cert.KernelIdeal Cert.KernelIdeal.Gen Cert.KernelIdeal.Rows Cert.Rows
open Idealize.ShloMosaic Idealize.ShloMosaic.TcCoe Idealize.ShloMosaic.ValueIdx Idealize.SL.Sem
open Idealize.ShloMosaic.Pipeline (Dat Cfg Window)

/-- The input array plus the one-row bias at every row, clipped at zero. -/
def G (A : FVec Ideal S100000x16 .f32) (W : FVec Ideal S1x16 .f32) : FVec Ideal S100000x16 .f32 := fun i =>
  max (A i + W (ix2 (0 : Fin 1) (⟨(i 1).val, idx2_lt1 i⟩ : Fin 16))) z

theorem G_apply (A : FVec Ideal S100000x16 .f32) (W : FVec Ideal S1x16 .f32) (r : Fin 100000) (q : Fin 16) :
    G A W (ix2 r q) = max (A (ix2 r q) + W (ix2 (0 : Fin 1) q)) z := rfl

theorem hz : (![0, 0] : Fin 2 → Nat) = fun _ => 0 := funext fun a => by fin_cases a <;> rfl

/-- The printed index maps over the grid: the input block and the output block move together along the rows, the
    second operand's block never moves, and no block index leaves its range. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every block of rows is some grid point's. -/
theorem idx_onto : ∀ q0 : Fin 10, ∃ t : Fin cfg1.N, win1_2.index t (0 : Fin 2) = q0.val :=
  (by decide +kernel : ∀ q0 : Fin 10, ∃ t : Fin grid1.N, win1_2.index t (0 : Fin 2) = q0.val)

/-- The row of the whole array that row p of point t's blocks is. -/
def rowAt (t : Fin cfg1.N) (p : Fin 10000) : Fin 100000 :=
  ⟨win1_2.index t (0 : Fin 2) * 10000 + p.val, by
    have h := (idx_facts t).2.2.2.2.2
    have hp : p.val < 10000 := p.isLt
    omega⟩

/-- Where an entry of point t's output block sits in the output array. -/
theorem embOut (t : Fin cfg1.N) (p : Fin 10000) (q : Fin 16) :
    ((cfg1.win 2).blk t).view.emb (ix2 p q) = ix2 (rowAt t p) q := by
  obtain ⟨e0, e1, e2, e3, e4, e5⟩ := idx_facts t
  funext a; apply Fin.ext
  match a with
  | ⟨0, _⟩ => show win1_2.index t (0 : Fin 2) * 10000 + 1 * p.val = win1_2.index t (0 : Fin 2) * 10000 + p.val; omega
  | ⟨1, _⟩ => show win1_2.index t (1 : Fin 2) * 16 + 1 * q.val = q.val; omega

/-- Where an entry of point t's input block sits in the input array. -/
theorem embIn (t : Fin cfg1.N) (p : Fin 10000) (k : Fin 16) :
    ((cfg1.win 0).blk t).view.emb (ix2 p k) = ix2 (rowAt t p) k := by
  obtain ⟨e0, e1, e2, e3, e4, e5⟩ := idx_facts t
  funext a; apply Fin.ext
  match a with
  | ⟨0, _⟩ => show win1_0.index t (0 : Fin 2) * 10000 + 1 * p.val = win1_2.index t (0 : Fin 2) * 10000 + p.val; omega
  | ⟨1, _⟩ => show win1_0.index t (1 : Fin 2) * 16 + 1 * k.val = k.val; omega

/-- The second operand's block is the whole of its array. -/
theorem embSide (t : Fin cfg1.N) (u : Fin 1) (v : Fin 16) :
    ((cfg1.win 1).blk t).view.emb (ix2 u v) = ix2 u v := by
  obtain ⟨e0, e1, e2, e3, e4, e5⟩ := idx_facts t
  funext a; apply Fin.ext
  match a with
  | ⟨0, _⟩ => show win1_1.index t (0 : Fin 2) * 1 + 1 * u.val = u.val; omega
  | ⟨1, _⟩ => show win1_1.index t (1 : Fin 2) * 16 + 1 * v.val = v.val; omega

variable (V : (c : Dev nD) → (b : Ref sig .tc) → Buf (Elt Ideal) ((c : Thread nD τ).loc b))

/-- An input block's entry is the input array's entry at the block's place. -/
theorem readIn (c : Dev nD) (t : Fin cfg1.N) (p : Fin 10000) (k : Fin 16) :
    iblk1 V c 0 t (ix2 p k) = V c (Pipeline.arrRef spec1 0) (ix2 (rowAt t p) k) := by
  show V c (Pipeline.arrRef spec1 0) (((cfg1.win 0).blk t).view.emb (ix2 p k)) = _
  rw [embIn]

theorem readSide (c : Dev nD) (t : Fin cfg1.N) (u : Fin 1) (v : Fin 16) :
    iblk1 V c 1 t (ix2 u v) = V c (Pipeline.arrRef spec1 1) (ix2 u v) := by
  show V c (Pipeline.arrRef spec1 1) (((cfg1.win 1).blk t).view.emb (ix2 u v)) = _
  rw [embSide]

/-- What grid point t writes back is its block of the whole-array function of the arrays the region found. -/
theorem flushed_eq (c : Dev nD) (t : Fin cfg1.N) :
    (dat1 V c).flushed 2 t
      = ((cfg1.win 2).blk t).view.read (Elt Ideal) (G (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S10000x16) hz, View.ld_unit_zero (S := S1x16) hz]
  funext j
  obtain ⟨p, q, rfl⟩ : ∃ (p : Fin 10000) (q : Fin 16), j = ix2 p q := ⟨j 0, j 1, eq_ix2 j⟩
  refine (pay1_apply (iblk1 V c 0 t) (iblk1 V c 1 t) p q).trans ?_
  show _ = G (V c (Pipeline.arrRef spec1 0)) (V c (Pipeline.arrRef spec1 1)) (((cfg1.win 2).blk t).view.emb (ix2 p q))
  rw [embOut, G_apply]
  rw [readIn, readSide]

/-- An index of the output array is in point t's block iff each coordinate is in the block's range on its axis. -/
theorem mem_blk (t : Fin cfg1.N) (i : S100000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v46).slice (win1_2.rect t)).set ↔ _
  rw [View.set_slice_whole, Rect.mem_set_unit]
  exact Iff.rfl

/-- The output blocks cover the output array: row r is in the block of the point whose block index is r / 10000. -/
theorem cover (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  obtain ⟨t, ht⟩ := idx_onto ⟨(i 0).val / 10000, by omega⟩
  have q0 : win1_2.index t (0 : Fin 2) = (i 0).val / 10000 := ht
  obtain ⟨e0, e1, e2, e3, e4, e5⟩ := idx_facts t
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 16 ≤ (i 1).val ∧ (i 1).val < win1_2.index t (1 : Fin 2) * 16 + 16; omega

/-- The output array after the region: the whole-array function of the two arrays the region found. -/
theorem final (c : Dev nD) :
    (dat1 V c).arrAt 2 cfg1.N = G (V c (Pipeline.arrRef spec1 0)) (V c (Pipeline.arrRef spec1 1)) :=
  (dat1 V c).arrAt_eq_of_cover 2 _ (fun t _ => flushed_eq V c t) cover

/-- The input arrays after the region are as the region found them. -/
theorem kept0 (c : Dev nD) : (dat1 V c).arrAt 0 cfg1.N = V c (Pipeline.arrRef spec1 0) :=
  ((dat1 V c).arrAt_in 0 rfl cfg1.N).trans (A_eq1 V c 0)

theorem kept1 (c : Dev nD) : (dat1 V c).arrAt 1 cfg1.N = V c (Pipeline.arrRef spec1 1) :=
  ((dat1 V c).arrAt_in 1 rfl cfg1.N).trans (A_eq1 V c 1)

end Cert.KernelIdeal.Region1

end
-- ==== Proof.Region2.lean ====
/-
  The second product region as one function of whole arrays.

  The region walks the [100000, 16] array in ten blocks of 10000 rows and multiplies each block by the whole
  [16, 7] weight.  A row of a block is a row of the array, so the blocks of the output are the blocks of the one
  product of the whole array with the weight; they tile the output array.
-/
import proofs.«125439_j65876208386063_1_alg».proof.Proof.Gen.KernelIdeal.Frame
import proofs.«125439_j65876208386063_1_alg».proof.Proof.Payloads
import Idealize.ShloMosaic.Lib.Pipeline.Value

set_option maxRecDepth 16384

noncomputable section

namespace Cert.KernelIdeal.Region2

open Cert.KernelIdeal Cert.KernelIdeal.Gen Cert.KernelIdeal.Rows Cert.Rows
open Idealize.ShloMosaic Idealize.ShloMosaic.TcCoe Idealize.ShloMosaic.ValueIdx Idealize.SL.Sem
open Idealize.ShloMosaic.Pipeline (Dat Cfg Window)

/-- The product of the whole input array with the weight: at (r, q) the sum over the shared axis. -/
def G (A : FVec Ideal S100000x16 .f32) (W : FVec Ideal S16x7 .f32) : FVec Ideal S100000x7 .f32 := fun i =>
  ∑ k : Fin 16, A (ix2 (⟨(i 0).val, idx2_lt0 i⟩ : Fin 100000) k) * W (ix2 k (⟨(i 1).val, idx2_lt1 i⟩ : Fin 7))

theorem G_apply (A : FVec Ideal S100000x16 .f32) (W : FVec Ideal S16x7 .f32) (r : Fin 100000) (q : Fin 7) :
    G A W (ix2 r q) = ∑ k : Fin 16, A (ix2 r k) * W (ix2 k q) := rfl

theorem hz : (![0, 0] : Fin 2 → Nat) = fun _ => 0 := funext fun a => by fin_cases a <;> rfl

/-- The printed index maps over the grid: the input block and the output block move together along the rows, the
    second operand's block never moves, and no block index leaves its range. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every block of rows is some grid point's. -/
theorem idx_onto : ∀ q0 : Fin 10, ∃ t : Fin cfg2.N, win2_2.index t (0 : Fin 2) = q0.val :=
  (by decide +kernel : ∀ q0 : Fin 10, ∃ t : Fin grid2.N, win2_2.index t (0 : Fin 2) = q0.val)

/-- The row of the whole array that row p of point t's blocks is. -/
def rowAt (t : Fin cfg2.N) (p : Fin 10000) : Fin 100000 :=
  ⟨win2_2.index t (0 : Fin 2) * 10000 + p.val, by
    have h := (idx_facts t).2.2.2.2.2
    have hp : p.val < 10000 := p.isLt
    omega⟩

/-- Where an entry of point t's output block sits in the output array. -/
theorem embOut (t : Fin cfg2.N) (p : Fin 10000) (q : Fin 7) :
    ((cfg2.win 2).blk t).view.emb (ix2 p q) = ix2 (rowAt t p) q := by
  obtain ⟨e0, e1, e2, e3, e4, e5⟩ := idx_facts t
  funext a; apply Fin.ext
  match a with
  | ⟨0, _⟩ => show win2_2.index t (0 : Fin 2) * 10000 + 1 * p.val = win2_2.index t (0 : Fin 2) * 10000 + p.val; omega
  | ⟨1, _⟩ => show win2_2.index t (1 : Fin 2) * 7 + 1 * q.val = q.val; omega

/-- Where an entry of point t's input block sits in the input array. -/
theorem embIn (t : Fin cfg2.N) (p : Fin 10000) (k : Fin 16) :
    ((cfg2.win 0).blk t).view.emb (ix2 p k) = ix2 (rowAt t p) k := by
  obtain ⟨e0, e1, e2, e3, e4, e5⟩ := idx_facts t
  funext a; apply Fin.ext
  match a with
  | ⟨0, _⟩ => show win2_0.index t (0 : Fin 2) * 10000 + 1 * p.val = win2_2.index t (0 : Fin 2) * 10000 + p.val; omega
  | ⟨1, _⟩ => show win2_0.index t (1 : Fin 2) * 16 + 1 * k.val = k.val; omega

/-- The second operand's block is the whole of its array. -/
theorem embSide (t : Fin cfg2.N) (u : Fin 16) (v : Fin 7) :
    ((cfg2.win 1).blk t).view.emb (ix2 u v) = ix2 u v := by
  obtain ⟨e0, e1, e2, e3, e4, e5⟩ := idx_facts t
  funext a; apply Fin.ext
  match a with
  | ⟨0, _⟩ => show win2_1.index t (0 : Fin 2) * 16 + 1 * u.val = u.val; omega
  | ⟨1, _⟩ => show win2_1.index t (1 : Fin 2) * 7 + 1 * v.val = v.val; omega

variable (V : (c : Dev nD) → (b : Ref sig .tc) → Buf (Elt Ideal) ((c : Thread nD τ).loc b))

/-- An input block's entry is the input array's entry at the block's place. -/
theorem readIn (c : Dev nD) (t : Fin cfg2.N) (p : Fin 10000) (k : Fin 16) :
    iblk2 V c 0 t (ix2 p k) = V c (Pipeline.arrRef spec2 0) (ix2 (rowAt t p) k) := by
  show V c (Pipeline.arrRef spec2 0) (((cfg2.win 0).blk t).view.emb (ix2 p k)) = _
  rw [embIn]

theorem readSide (c : Dev nD) (t : Fin cfg2.N) (u : Fin 16) (v : Fin 7) :
    iblk2 V c 1 t (ix2 u v) = V c (Pipeline.arrRef spec2 1) (ix2 u v) := by
  show V c (Pipeline.arrRef spec2 1) (((cfg2.win 1).blk t).view.emb (ix2 u v)) = _
  rw [embSide]

/-- What grid point t writes back is its block of the whole-array function of the arrays the region found. -/
theorem flushed_eq (c : Dev nD) (t : Fin cfg2.N) :
    (dat2 V c).flushed 2 t
      = ((cfg2.win 2).blk t).view.read (Elt Ideal) (G (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S10000x16) hz, View.ld_unit_zero (S := S16x7) hz]
  funext j
  obtain ⟨p, q, rfl⟩ : ∃ (p : Fin 10000) (q : Fin 7), j = ix2 p q := ⟨j 0, j 1, eq_ix2 j⟩
  refine (pay2_apply (iblk2 V c 0 t) (iblk2 V c 1 t) p q).trans ?_
  show _ = G (V c (Pipeline.arrRef spec2 0)) (V c (Pipeline.arrRef spec2 1)) (((cfg2.win 2).blk t).view.emb (ix2 p q))
  rw [embOut, G_apply]
  exact Finset.sum_congr rfl fun k _ => by rw [readIn, readSide]

/-- An index of the output array is in point t's block iff each coordinate is in the block's range on its axis. -/
theorem mem_blk (t : Fin cfg2.N) (i : S100000x7.Idx) :
    i ∈ ((cfg2.win 2).blk t).view.set ↔ ∀ a : Fin 2, win2_2.index t a * S10000x7.size a ≤ (i a).val ∧ (i a).val < win2_2.index t a * S10000x7.size a + S10000x7.size a := by
  show i ∈ ((View.whole main_v47).slice (win2_2.rect t)).set ↔ _
  rw [View.set_slice_whole, Rect.mem_set_unit]
  exact Iff.rfl

/-- The output blocks cover the output array: row r is in the block of the point whose block index is r / 10000. -/
theorem cover (i : S100000x7.Idx) :
    ∃ t : Fin cfg2.N, (cfg2.win 2).flush t = true ∧ i ∈ ((cfg2.win 2).blk t).view.set := by
  have hi0 : (i 0).val < 100000 := (i 0).isLt
  have hi1 : (i 1).val < 7 := (i 1).isLt
  obtain ⟨t, ht⟩ := idx_onto ⟨(i 0).val / 10000, by omega⟩
  have q0 : win2_2.index t (0 : Fin 2) = (i 0).val / 10000 := ht
  obtain ⟨e0, e1, e2, e3, e4, e5⟩ := idx_facts t
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 7 ≤ (i 1).val ∧ (i 1).val < win2_2.index t (1 : Fin 2) * 7 + 7; omega

/-- The output array after the region: the whole-array function of the two arrays the region found. -/
theorem final (c : Dev nD) :
    (dat2 V c).arrAt 2 cfg2.N = G (V c (Pipeline.arrRef spec2 0)) (V c (Pipeline.arrRef spec2 1)) :=
  (dat2 V c).arrAt_eq_of_cover 2 _ (fun t _ => flushed_eq V c t) cover

/-- The input arrays after the region are as the region found them. -/
theorem kept0 (c : Dev nD) : (dat2 V c).arrAt 0 cfg2.N = V c (Pipeline.arrRef spec2 0) :=
  ((dat2 V c).arrAt_in 0 rfl cfg2.N).trans (A_eq2 V c 0)

theorem kept1 (c : Dev nD) : (dat2 V c).arrAt 1 cfg2.N = V c (Pipeline.arrRef spec2 1) :=
  ((dat2 V c).arrAt_in 1 rfl cfg2.N).trans (A_eq2 V c 1)

end Cert.KernelIdeal.Region2

end
-- ==== Proof.Region3.lean ====
/-
  The normalising region as one function of whole arrays.

  The region walks the [100000, 7] array in ten blocks of 10000 rows.  At each grid point the body adds the one-row
  bias to every row of the block and replaces the row by its log-softmax.  The result at an entry depends on that
  entry's row only, so the blocks of the output are the blocks of the row-wise log-softmax of the whole array plus
  the bias; they tile the output array.
-/
import proofs.«125439_j65876208386063_1_alg».proof.Proof.Gen.KernelIdeal.Frame
import proofs.«125439_j65876208386063_1_alg».proof.Proof.Payloads
import Idealize.ShloMosaic.Lib.Pipeline.Value

set_option maxRecDepth 16384

noncomputable section

namespace Cert.KernelIdeal.Region3

open Cert.KernelIdeal Cert.KernelIdeal.Gen Cert.KernelIdeal.Rows Cert.Rows
open Idealize.ShloMosaic Idealize.ShloMosaic.TcCoe Idealize.ShloMosaic.ValueIdx Idealize.SL.Sem
open Idealize.ShloMosaic.Pipeline (Dat Cfg Window)

/-- The row-wise log-softmax of the input array plus the one-row bias. -/
def G (A : FVec Ideal S100000x7 .f32) (W : FVec Ideal S1x7 .f32) : FVec Ideal S100000x7 .f32 := fun i =>
  logSoftmaxRow (fun k : Fin 7 => A (ix2 (⟨(i 0).val, idx2_lt0 i⟩ : Fin 100000) k) + W (ix2 (0 : Fin 1) k)) (⟨(i 1).val, idx2_lt1 i⟩ : Fin 7)

theorem G_apply (A : FVec Ideal S100000x7 .f32) (W : FVec Ideal S1x7 .f32) (r : Fin 100000) (q : Fin 7) :
    G A W (ix2 r q) = logSoftmaxRow (fun k : Fin 7 => A (ix2 r k) + W (ix2 (0 : Fin 1) k)) q := rfl

theorem hz : (![0, 0] : Fin 2 → Nat) = fun _ => 0 := funext fun a => by fin_cases a <;> rfl

/-- The printed index maps over the grid: the input block and the output block move together along the rows, the
    second operand's block never moves, and no block index leaves its range. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 9 :=
  (by decide +kernel : ∀ t : Fin grid3.N, _)

/-- Every block of rows is some grid point's. -/
theorem idx_onto : ∀ q0 : Fin 10, ∃ t : Fin cfg3.N, win3_2.index t (0 : Fin 2) = q0.val :=
  (by decide +kernel : ∀ q0 : Fin 10, ∃ t : Fin grid3.N, win3_2.index t (0 : Fin 2) = q0.val)

/-- The row of the whole array that row p of point t's blocks is. -/
def rowAt (t : Fin cfg3.N) (p : Fin 10000) : Fin 100000 :=
  ⟨win3_2.index t (0 : Fin 2) * 10000 + p.val, by
    have h := (idx_facts t).2.2.2.2.2
    have hp : p.val < 10000 := p.isLt
    omega⟩

/-- Where an entry of point t's output block sits in the output array. -/
theorem embOut (t : Fin cfg3.N) (p : Fin 10000) (q : Fin 7) :
    ((cfg3.win 2).blk t).view.emb (ix2 p q) = ix2 (rowAt t p) q := by
  obtain ⟨e0, e1, e2, e3, e4, e5⟩ := idx_facts t
  funext a; apply Fin.ext
  match a with
  | ⟨0, _⟩ => show win3_2.index t (0 : Fin 2) * 10000 + 1 * p.val = win3_2.index t (0 : Fin 2) * 10000 + p.val; omega
  | ⟨1, _⟩ => show win3_2.index t (1 : Fin 2) * 7 + 1 * q.val = q.val; omega

/-- Where an entry of point t's input block sits in the input array. -/
theorem embIn (t : Fin cfg3.N) (p : Fin 10000) (k : Fin 7) :
    ((cfg3.win 0).blk t).view.emb (ix2 p k) = ix2 (rowAt t p) k := by
  obtain ⟨e0, e1, e2, e3, e4, e5⟩ := idx_facts t
  funext a; apply Fin.ext
  match a with
  | ⟨0, _⟩ => show win3_0.index t (0 : Fin 2) * 10000 + 1 * p.val = win3_2.index t (0 : Fin 2) * 10000 + p.val; omega
  | ⟨1, _⟩ => show win3_0.index t (1 : Fin 2) * 7 + 1 * k.val = k.val; omega

/-- The second operand's block is the whole of its array. -/
theorem embSide (t : Fin cfg3.N) (u : Fin 1) (v : Fin 7) :
    ((cfg3.win 1).blk t).view.emb (ix2 u v) = ix2 u v := by
  obtain ⟨e0, e1, e2, e3, e4, e5⟩ := idx_facts t
  funext a; apply Fin.ext
  match a with
  | ⟨0, _⟩ => show win3_1.index t (0 : Fin 2) * 1 + 1 * u.val = u.val; omega
  | ⟨1, _⟩ => show win3_1.index t (1 : Fin 2) * 7 + 1 * v.val = v.val; omega

variable (V : (c : Dev nD) → (b : Ref sig .tc) → Buf (Elt Ideal) ((c : Thread nD τ).loc b))

/-- An input block's entry is the input array's entry at the block's place. -/
theorem readIn (c : Dev nD) (t : Fin cfg3.N) (p : Fin 10000) (k : Fin 7) :
    iblk3 V c 0 t (ix2 p k) = V c (Pipeline.arrRef spec3 0) (ix2 (rowAt t p) k) := by
  show V c (Pipeline.arrRef spec3 0) (((cfg3.win 0).blk t).view.emb (ix2 p k)) = _
  rw [embIn]

theorem readSide (c : Dev nD) (t : Fin cfg3.N) (u : Fin 1) (v : Fin 7) :
    iblk3 V c 1 t (ix2 u v) = V c (Pipeline.arrRef spec3 1) (ix2 u v) := by
  show V c (Pipeline.arrRef spec3 1) (((cfg3.win 1).blk t).view.emb (ix2 u v)) = _
  rw [embSide]

/-- What grid point t writes back is its block of the whole-array function of the arrays the region found. -/
theorem flushed_eq (c : Dev nD) (t : Fin cfg3.N) :
    (dat3 V c).flushed 2 t
      = ((cfg3.win 2).blk t).view.read (Elt Ideal) (G (V c (Pipeline.arrRef spec3 0)) (V c (Pipeline.arrRef spec3 1))) := by
  show (cfg3.win 2).cut (grid3.coords t) ((dat3 V c).after 2 t) = _
  rw [after3_2]
  unfold out3_2
  rw [View.canon_unit_zero hz]
  simp only [View.ld_unit_zero (S := S10000x7) hz, View.ld_unit_zero (S := S1x7) hz]
  funext j
  obtain ⟨p, q, rfl⟩ : ∃ (p : Fin 10000) (q : Fin 7), j = ix2 p q := ⟨j 0, j 1, eq_ix2 j⟩
  refine (pay3_apply (iblk3 V c 0 t) (iblk3 V c 1 t) p q).trans ?_
  show _ = G (V c (Pipeline.arrRef spec3 0)) (V c (Pipeline.arrRef spec3 1)) (((cfg3.win 2).blk t).view.emb (ix2 p q))
  rw [embOut, G_apply]
  exact congrArg (fun f => logSoftmaxRow f q) (funext fun k => by rw [readIn, readSide])

/-- An index of the output array is in point t's block iff each coordinate is in the block's range on its axis. -/
theorem mem_blk (t : Fin cfg3.N) (i : S100000x7.Idx) :
    i ∈ ((cfg3.win 2).blk t).view.set ↔ ∀ a : Fin 2, win3_2.index t a * S10000x7.size a ≤ (i a).val ∧ (i a).val < win3_2.index t a * S10000x7.size a + S10000x7.size a := by
  show i ∈ ((View.whole main_v62).slice (win3_2.rect t)).set ↔ _
  rw [View.set_slice_whole, Rect.mem_set_unit]
  exact Iff.rfl

/-- The output blocks cover the output array: row r is in the block of the point whose block index is r / 10000. -/
theorem cover (i : S100000x7.Idx) :
    ∃ t : Fin cfg3.N, (cfg3.win 2).flush t = true ∧ i ∈ ((cfg3.win 2).blk t).view.set := by
  have hi0 : (i 0).val < 100000 := (i 0).isLt
  have hi1 : (i 1).val < 7 := (i 1).isLt
  obtain ⟨t, ht⟩ := idx_onto ⟨(i 0).val / 10000, by omega⟩
  have q0 : win3_2.index t (0 : Fin 2) = (i 0).val / 10000 := ht
  obtain ⟨e0, e1, e2, e3, e4, e5⟩ := idx_facts t
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 7 ≤ (i 1).val ∧ (i 1).val < win3_2.index t (1 : Fin 2) * 7 + 7; omega

/-- The output array after the region: the whole-array function of the two arrays the region found. -/
theorem final (c : Dev nD) :
    (dat3 V c).arrAt 2 cfg3.N = G (V c (Pipeline.arrRef spec3 0)) (V c (Pipeline.arrRef spec3 1)) :=
  (dat3 V c).arrAt_eq_of_cover 2 _ (fun t _ => flushed_eq V c t) cover

/-- The input arrays after the region are as the region found them. -/
theorem kept0 (c : Dev nD) : (dat3 V c).arrAt 0 cfg3.N = V c (Pipeline.arrRef spec3 0) :=
  ((dat3 V c).arrAt_in 0 rfl cfg3.N).trans (A_eq3 V c 0)

theorem kept1 (c : Dev nD) : (dat3 V c).arrAt 1 cfg3.N = V c (Pipeline.arrRef spec3 1) :=
  ((dat3 V c).arrAt_in 1 rfl cfg3.N).trans (A_eq3 V c 1)

end Cert.KernelIdeal.Region3

end
-- ==== Proof.LibRegionOp.lean ====
/-
  A pipelined region as one pure operation of a program's fold.

  A program that alternates stretches of host operations with pipelined regions leaves, at each boundary, the
  buffer contents obtained by folding its segments over the launch contents: a host operation rewrites its result
  buffer with its function of its operands, and a region rewrites its arrays with what its write-backs leave.
  When a region's input arrays end as it found them and its one output array ends at a function of those inputs,
  the region rewrites the contents exactly as one host operation with that function would.  The whole program is
  then one line of operations, and what a buffer holds at the end is a computation over that line.
-/
import Idealize.ShloMosaic.Lib.Pipeline.FrameSuffix
import Idealize.ShloMosaic.Lib.StableHlo.Run

noncomputable section

namespace Cert.RegionOp

open Idealize.ShloMosaic Idealize.ShloMosaic.StableHlo Idealize.ShloMosaic.TcCoe

variable {nD : Nat} {τ : Topo} {sig : RefSig} {Val : EltTy → Type}

/-- Two lines run one after the other leave what their concatenation leaves. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A region whose output array `o` ends at what the operation `op` writes there, whose other arrays end as the
    region found them, and which writes nothing else, leaves what `op` leaves. -/
theorem withArrays_eq_result {gr W : Nat} (win : Fin W → Pipeline.WinSpec sig gr) (hinj : Function.Injective (Pipeline.arrRef win))
    (c : Dev nD) (V : Valuation τ sig Val) (A : (w : Fin W) → Buf Val ((win w).arr.view.loc (c.tc : Thread nD τ)))
    (op : HloOp τ sig Val) (o : Fin W)
    (hw : op.writes = {Proc.devRef .tc (Pipeline.arrRef win o)})
    (hout : A o = op.result V (Proc.devRef .tc (Pipeline.arrRef win o)))
    (hin : ∀ w, w ≠ o → A w = V (Proc.devRef .tc (Pipeline.arrRef win w))) :
    Pipeline.withArrays win c V A = op.result V := by
  funext b
  by_cases h : ∃ w, Proc.devRef .tc (Pipeline.arrRef win w) = b
  · obtain ⟨w, rfl⟩ := h
    rw [Pipeline.withArrays_arr win hinj]
    by_cases hwo : w = o
    · subst hwo; exact hout
    · rw [hin w hwo, op.result_of_not_mem V (by
        rw [hw, Finset.mem_singleton]; exact fun e => hwo (hinj (Proc.devRef_injective _ e)))]
  · have hb : b ∉ op.writes := by
      rw [hw, Finset.mem_singleton]; exact fun e => h ⟨o, e.symm⟩
    rw [op.result_of_not_mem V hb]
    unfold Pipeline.withArrays
    rw [dif_neg h]

end Cert.RegionOp

end
-- ==== Proof.KernelLine.lean ====
/-
  The idealized kernel as one line of operations.

  Between its stretches of host operations the program runs four pipelined regions.  Each region leaves its two
  input arrays as it found them and its output array at one function of them (two products, a bias-and-clip, a
  row-wise log-softmax), and writes no other buffer that outlives it; so it rewrites the buffer contents exactly
  as one binary operation with that function would.  The contents after the last region are therefore those left
  by one line of operations run from the launch contents.
-/
import proofs.«125439_j65876208386063_1_alg».proof.Proof.Gen.KernelIdeal.Frame
import proofs.«125439_j65876208386063_1_alg».proof.Proof.Region0
import proofs.«125439_j65876208386063_1_alg».proof.Proof.Region1
import proofs.«125439_j65876208386063_1_alg».proof.Proof.Region2
import proofs.«125439_j65876208386063_1_alg».proof.Proof.Region3
import proofs.«125439_j65876208386063_1_alg».proof.Proof.LibRegionOp

set_option maxRecDepth 16384

noncomputable section

namespace Cert.KernelIdeal.Line

open Cert.KernelIdeal Cert.KernelIdeal.Gen
open Idealize.ShloMosaic Idealize.ShloMosaic.TcCoe Idealize.SL.Sem Idealize.ShloMosaic.StableHlo

/-- The first product region as an operation: x times the first weight. -/
abbrev op0 : HloOp τ sig (Elt Ideal) :=
  binary main_arg0 main_arg1 main_v31 (Region0.G : (⟨S100000x512, .f32⟩ : BufTy).Contents (Elt Ideal) → (⟨S512x16, .f32⟩ : BufTy).Contents (Elt Ideal) → (⟨S100000x16, .f32⟩ : BufTy).Contents (Elt Ideal))

/-- The bias-and-clip region as an operation. -/
abbrev op1 : HloOp τ sig (Elt Ideal) :=
  binary main_v44 main_v45 main_v46 (Region1.G : (⟨S100000x16, .f32⟩ : BufTy).Contents (Elt Ideal) → (⟨S1x16, .f32⟩ : BufTy).Contents (Elt Ideal) → (⟨S100000x16, .f32⟩ : BufTy).Contents (Elt Ideal))

/-- The second product region as an operation. -/
abbrev op2 : HloOp τ sig (Elt Ideal) :=
  binary main_v46 main_arg3 main_v47 (Region2.G : (⟨S100000x16, .f32⟩ : BufTy).Contents (Elt Ideal) → (⟨S16x7, .f32⟩ : BufTy).Contents (Elt Ideal) → (⟨S100000x7, .f32⟩ : BufTy).Contents (Elt Ideal))

/-- The normalising region as an operation. -/
abbrev op3 : HloOp τ sig (Elt Ideal) :=
  binary main_v60 main_v61 main_v62 (Region3.G : (⟨S100000x7, .f32⟩ : BufTy).Contents (Elt Ideal) → (⟨S1x7, .f32⟩ : BufTy).Contents (Elt Ideal) → (⟨S100000x7, .f32⟩ : BufTy).Contents (Elt Ideal))

variable (m : (ℓ : Loc nD τ sig) → Buf (Elt Ideal) ℓ) (ρ : Dev nD → PrngReg)

/-- Region 0 rewrites the buffer contents as its one operation does: its output array ends at the whole-array
    function of its two input arrays, which end as the region found them, and it writes nothing else. -/
theorem region0 (c : Dev nD) : W4 m ρ c = op0.result (W3 m ρ c) := by
  unfold W4
  refine Cert.RegionOp.withArrays_eq_result spec0 launch0.win.arr_inj c (W3 m ρ c) _ op0 2 rfl ?_ ?_
  · exact (Region0.final (V3 m ρ) c).trans (binary_result main_arg0 main_arg1 main_v31 _ _ _ _ (W3 m ρ c)).symm
  · intro w hw
    fin_cases w
    · exact Region0.kept0 (V3 m ρ) c
    · exact Region0.kept1 (V3 m ρ) c
    · exact absurd rfl hw

/-- Region 1 rewrites the buffer contents as its one operation does: its output array ends at the whole-array
    function of its two input arrays, which end as the region found them, and it writes nothing else. -/
theorem region1 (c : Dev nD) : W6 m ρ c = op1.result (W5 m ρ c) := by
  unfold W6
  refine Cert.RegionOp.withArrays_eq_result spec1 launch1.win.arr_inj c (W5 m ρ c) _ op1 2 rfl ?_ ?_
  · exact (Region1.final (V5 m ρ) c).trans (binary_result main_v44 main_v45 main_v46 _ _ _ _ (W5 m ρ c)).symm
  · intro w hw
    fin_cases w
    · exact Region1.kept0 (V5 m ρ) c
    · exact Region1.kept1 (V5 m ρ) c
    · exact absurd rfl hw

/-- Region 2 rewrites the buffer contents as its one operation does: its output array ends at the whole-array
    function of its two input arrays, which end as the region found them, and it writes nothing else. -/
theorem region2 (c : Dev nD) : W7 m ρ c = op2.result (W6 m ρ c) := by
  unfold W7
  refine Cert.RegionOp.withArrays_eq_result spec2 launch2.win.arr_inj c (W6 m ρ c) _ op2 2 rfl ?_ ?_
  · exact (Region2.final (V6 m ρ) c).trans (binary_result main_v46 main_arg3 main_v47 _ _ _ _ (W6 m ρ c)).symm
  · intro w hw
    fin_cases w
    · exact Region2.kept0 (V6 m ρ) c
    · exact Region2.kept1 (V6 m ρ) c
    · exact absurd rfl hw

/-- Region 3 rewrites the buffer contents as its one operation does: its output array ends at the whole-array
    function of its two input arrays, which end as the region found them, and it writes nothing else. -/
theorem region3 (c : Dev nD) : W9 m ρ c = op3.result (W8 m ρ c) := by
  unfold W9
  refine Cert.RegionOp.withArrays_eq_result spec3 launch3.win.arr_inj c (W8 m ρ c) _ op3 2 rfl ?_ ?_
  · exact (Region3.final (V8 m ρ) c).trans (binary_result main_v60 main_v61 main_v62 _ _ _ _ (W8 m ρ c)).symm
  · intro w hw
    fin_cases w
    · exact Region3.kept0 (V8 m ρ) c
    · exact Region3.kept1 (V8 m ρ) c
    · exact absurd rfl hw

/-- The host stretches and the four regions' operations, in program order, run from given contents. -/
def fold (V : Valuation τ sig (Elt Ideal)) : Valuation τ sig (Elt Ideal) :=
  op3.result (after (hostOps3 (F := Ideal)) (op2.result (op1.result (after (hostOps1 (F := Ideal))
    (op0.result (after (hostOps0_2 (F := Ideal)) (after (hostOps0_1 (F := Ideal)) (after (hostOps0 (F := Ideal)) V))))))))

/-- The contents after the last region are those the line leaves from the launch contents. -/
theorem line (c : Dev nD) : W9 m ρ c = fold (W0 m ρ c) :=
  (region3 m ρ c).trans (congrArg op3.result (congrArg (after (hostOps3 (F := Ideal))) ((region2 m ρ c).trans
    (congrArg op2.result ((region1 m ρ c).trans (congrArg op1.result (congrArg (after (hostOps1 (F := Ideal))) (region0 m ρ c))))))))

end Cert.KernelIdeal.Line

end
-- ==== Proof.RefKept.lean ====
/-
  The reference's line of host operations writes none of its six argument buffers: walking the line backwards from an
  argument buffer passes every operation and ends at the launch contents.
-/
import proofs.«125439_j65876208386063_1_alg».proof.Proof.RefRunP

set_option maxRecDepth 16384

noncomputable section

namespace Cert.ReferenceIdeal.Kept

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F] (m : (ℓ : Loc nD τ sig) → Buf (Elt F) ℓ)

theorem kept_arg0 (c : Dev nD) :
    after (ops (F := F)) (launchContents m c) (Proc.devRef .tc main_arg0) = m ((c.tc : Thread nD τ).loc main_arg0) := by
  after_results_simp <;> rfl

theorem kept_arg1 (c : Dev nD) :
    after (ops (F := F)) (launchContents m c) (Proc.devRef .tc main_arg1) = m ((c.tc : Thread nD τ).loc main_arg1) := by
  after_results_simp <;> rfl

theorem kept_arg2 (c : Dev nD) :
    after (ops (F := F)) (launchContents m c) (Proc.devRef .tc main_arg2) = m ((c.tc : Thread nD τ).loc main_arg2) := by
  after_results_simp <;> rfl

theorem kept_arg3 (c : Dev nD) :
    after (ops (F := F)) (launchContents m c) (Proc.devRef .tc main_arg3) = m ((c.tc : Thread nD τ).loc main_arg3) := by
  after_results_simp <;> rfl

theorem kept_arg4 (c : Dev nD) :
    after (ops (F := F)) (launchContents m c) (Proc.devRef .tc main_arg4) = m ((c.tc : Thread nD τ).loc main_arg4) := by
  after_results_simp <;> rfl

theorem kept_arg5 (c : Dev nD) :
    after (ops (F := F)) (launchContents m c) (Proc.devRef .tc main_arg5) = m ((c.tc : Thread nD τ).loc main_arg5) := by
  after_results_simp <;> rfl

end Cert.ReferenceIdeal.Kept

end
-- ==== Proof.LibHostRowOps.lean ====
/-
  Host operations on two-dimensional arrays read at one index, on the extended reals.

  A jnp reference that applies dense layers and a row-wise normalisation is a composition of a few host operations on
  [a, b] arrays. Each lemma below reads one of them at the index (r, c), both coordinates explicit: a plain
  `dot_general` is the sum over the shared axis; a `reduce` along the second axis with a maximum body is the fold of
  `max` over that row from the initial value, and the float sum along it is the initial value plus the row's sum; a
  `broadcast_in_dim` of a vector to a [1, b] row or an [a, 1] column, and of such a row or column to an [a, b]
  array, only moves coordinates.
-/
import Idealize.ShloMosaic.PureOps.Ideal.Laws
import Idealize.ShloMosaic.Lib.ValueIdx
import Idealize.ShloMosaic.Lib.Pipeline.Value
import Idealize.ShloMosaic.Lib.IdealHost
import proofs.«125439_j65876208386063_1_alg».proof.Proof.LibRowOps

noncomputable section

namespace Cert.HostRowOps

open Idealize.ShloMosaic Idealize.ShloMosaic.ValueIdx

/-! ## A plain host product -/

section Plain

variable {M K N : Nat} {d : DotDims ⟨2, ![M, K]⟩ ⟨2, ![K, N]⟩ ⟨2, ![M, N]⟩}

/-- The host's plain `[M, K] × [K, N]` product at (r, c): the sum over the shared axis of the products. -/
theorem dot_apply (hd : RowOps.IsPlain d) {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral d prec lhs rhs (ix2 r c) = ∑ k : Fin K, lhs (ix2 r k) * rhs (ix2 k c) := by
  simp only [Host.dotGeneral]
  rw [Ideal.dotGeneral_apply,
    ← Equiv.sum_comp (contrEquiv1 d K (RowOps.contr_rank hd) (RowOps.contr_size hd)).symm]
  refine Finset.sum_congr rfl fun k _ => ?_
  have hk := contrEquiv1_symm_val d K (RowOps.contr_rank hd) (RowOps.contr_size hd) k
  have el : d.lhsIdx (ix2 r c) ((contrEquiv1 d K (RowOps.contr_rank hd) (RowOps.contr_size hd)).symm k) = ix2 r k :=
    funext fun a => Fin.ext (by
      match a with
      | ⟨0, _⟩ => exact RowOps.lhsIdx_row hd _ _
      | ⟨1, _⟩ => exact (d.lhsIdx_val_of_single hd.lc _ _).trans hk)
  have er : d.rhsIdx (ix2 r c) ((contrEquiv1 d K (RowOps.contr_rank hd) (RowOps.contr_size hd)).symm k) = ix2 k c :=
    funext fun a => Fin.ext (by
      match a with
      | ⟨0, _⟩ => exact (d.rhsIdx_val_of_single hd.rc _ _).trans hk
      | ⟨1, _⟩ => exact RowOps.rhsIdx_col hd _ _)
  rw [el, er]

end Plain

/-! ## Host reductions along the second axis -/

section Rows

variable {a b : Nat} {φ : FTy} {u : Shape}

/-- The host's `reduce` with a maximum body along the second axis, at row `r`: the fold of `max` over that row from the
    initial value's element. -/
theorem rowMax_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (RowOps.lift_row h r k))

/-- The host's float sum along the second axis, at row `r`: the initial value's element plus the sum of that row. -/
theorem rowSum_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  rw [hostReduceAdd_apply, Ideal.hostReduceAdd_single h' h]
  exact congrArg (init (Shape.Idx.first hu) + ·) (Finset.sum_congr rfl fun k _ => congrArg x (RowOps.lift_row h r k))

end Rows

/-! ## Moving coordinates -/

section Layout

variable {α : Type} {a b : Nat}

/-- A length-`b` vector laid along the second axis of a `[1, b]` row reads, at (u, j), the vector at j. -/
theorem vecToRow_apply (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) :=
  broadcastInDim_apply _ h x _ _ (fun c => by
    match c with
    | ⟨0, _⟩ =>
      show j.val = if b = 1 then 0 else j.val
      split
      · next h1 => have := j.isLt; omega
      · rfl)

/-- A `[1, b]` row repeated along a first axis reads, at (i, j), the row at (0, j). -/
theorem rowToMat_apply (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) :=
  broadcastInDim_apply _ h x _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- A length-`a` vector laid along the first axis of an `[a, 1]` column reads, at (i, u), the vector at i. -/
theorem vecToCol_apply (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ (fun c => by
    match c with
    | ⟨0, _⟩ =>
      show i.val = if a = 1 then 0 else i.val
      split
      · next h1 => have := i.isLt; omega
      · rfl)

/-- An `[a, 1]` column repeated along a second axis reads, at (i, j), the column at (i, 0). -/
theorem colToMat_apply (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) :=
  broadcastInDim_apply _ h x _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

end Layout

end Cert.HostRowOps

end
-- ==== Proof.HostForms.lean ====
/-
  The four regions' functions in the reference's spelling.

  Each region's whole-array function is what the reference computes with host operations on the same arrays.  The
  two products are the host's contractions of the second axis of the left array with the first axis of the right
  one.  The bias-and-clip is the host's sum with the one-row bias repeated over the rows, followed by a maximum with
  a splat zero.  The normalising region is the host's row-wise log-softmax of the array plus the repeated bias row:
  the host takes each row's maximum (a fold from minus infinity, then once more a maximum with minus infinity,
  which changes nothing), subtracts it, and subtracts the logarithm of the row's sum of exponentials (a sum started
  from zero).  Last, the one-row bias itself: the kernel's program reshapes the bias vector into a one-row array,
  the reference lays the vector along a row; both read the vector's entry j at (0, j).
  Every equation is proved entry by entry; none needs an entry to be finite.
-/
import proofs.«125439_j65876208386063_1_alg».proof.ReferenceIdeal
import proofs.«125439_j65876208386063_1_alg».proof.Proof.Region0
import proofs.«125439_j65876208386063_1_alg».proof.Proof.Region1
import proofs.«125439_j65876208386063_1_alg».proof.Proof.Region2
import proofs.«125439_j65876208386063_1_alg».proof.Proof.Region3
import proofs.«125439_j65876208386063_1_alg».proof.Proof.LibRowOps
import proofs.«125439_j65876208386063_1_alg».proof.Proof.LibHostRowOps
import Idealize.ShloMosaic.Lib.IdealHost

noncomputable section

namespace Cert.HostForms

open Idealize.ShloMosaic Idealize.ShloMosaic.ValueIdx Cert.Rows

variable [Cert.ReferenceIdeal.Facts₀] [Cert.KernelIdeal.Facts₀]

theorem plainR0 : Cert.RowOps.IsPlain Cert.ReferenceIdeal.dot_S100000x512_S512x16_S100000x16_1_0_0_1_n_n := ⟨rfl, rfl, rfl, rfl, rfl, rfl⟩

theorem plainR2 : Cert.RowOps.IsPlain Cert.ReferenceIdeal.dot_S100000x16_S16x7_S100000x7_1_0_0_1_n_n := ⟨rfl, rfl, rfl, rfl, rfl, rfl⟩

theorem hostExp_apply {s : Shape} {φ : FTy} (x : FVec Ideal s φ) (i : s.Idx) : Host.exp x i = Ideal.exp (x i) := rfl

theorem hostLog_apply {s : Shape} {φ : FTy} (x : FVec Ideal s φ) (i : s.Idx) : Host.log x i = Ideal.log (x i) := rfl

/-- A length-b vector viewed as a one-row array reads, at (0, j), the vector at j. -/
theorem rowView_apply {α : Type} {b : Nat} (v : (⟨1, ![b]⟩ : Shape).Idx → α) (h : (⟨1, ![b]⟩ : Shape).ShapeCasts ⟨2, ![1, b]⟩)
    (j : Fin b) : shapeCast ⟨2, ![1, b]⟩ v h (ix2 (0 : Fin 1) j) = v (ix1 j) :=
  shapeCast_apply v h _ _ (by
    rw [Shape.rowMajor_val_one, Shape.rowMajor_val_two]
    show j.val = 0 * b + j.val
    omega)

/-- The first product region computes the host's product of the two arrays. -/
theorem product0 (x : FVec Ideal Cert.KernelIdeal.S100000x512 .f32) (w : FVec Ideal Cert.KernelIdeal.S512x16 .f32) :
    Cert.KernelIdeal.Region0.G x w = Host.dotGeneral Cert.ReferenceIdeal.dot_S100000x512_S512x16_S100000x16_1_0_0_1_n_n none x w := by
  funext i
  obtain ⟨r, q, rfl⟩ : ∃ (r : Fin 100000) (q : Fin 16), i = ix2 r q := ⟨i 0, i 1, eq_ix2 i⟩
  rw [Cert.KernelIdeal.Region0.G_apply]
  exact (Cert.HostRowOps.dot_apply plainR0 none x w r q).symm

/-- The second product region computes the host's product of the two arrays. -/
theorem product2 (x : FVec Ideal Cert.KernelIdeal.S100000x16 .f32) (w : FVec Ideal Cert.KernelIdeal.S16x7 .f32) :
    Cert.KernelIdeal.Region2.G x w = Host.dotGeneral Cert.ReferenceIdeal.dot_S100000x16_S16x7_S100000x7_1_0_0_1_n_n none x w := by
  funext i
  obtain ⟨r, q, rfl⟩ : ∃ (r : Fin 100000) (q : Fin 7), i = ix2 r q := ⟨i 0, i 1, eq_ix2 i⟩
  rw [Cert.KernelIdeal.Region2.G_apply]
  exact (Cert.HostRowOps.dot_apply plainR2 none x w r q).symm

/-- The bias-and-clip region computes the host's sum with the bias row repeated over the rows, clipped at a splat zero. -/
theorem biasClip (a : FVec Ideal Cert.KernelIdeal.S100000x16 .f32) (v : FVec Ideal Cert.KernelIdeal.S1x16 .f32) :
    Cert.KernelIdeal.Region1.G a v
      = maximumf (addf a (broadcastInDim Cert.ReferenceIdeal.S100000x16 ![0, 1] Cert.ReferenceIdeal.Facts₀.bcast_S1x16_S100000x16_0_1 v))
          (broadcastInDim Cert.ReferenceIdeal.S100000x16 ![] Cert.ReferenceIdeal.Facts₀.bcast_S_S100000x16 (constant (F := Ideal) Cert.ReferenceIdeal.S_ .f32 0x00000000#32)) := by
  funext i
  obtain ⟨r, q, rfl⟩ : ∃ (r : Fin 100000) (q : Fin 16), i = ix2 r q := ⟨i 0, i 1, eq_ix2 i⟩
  rw [Cert.KernelIdeal.Region1.G_apply, maximumf_apply, addf_apply, Cert.HostRowOps.rowToMat_apply, broadcastInDim_scalar_apply, constant_apply]

/-- Each row's maximum in the host's spelling, repeated along the row. -/
def rowMaxHost (L : FVec Ideal Cert.ReferenceIdeal.S100000x7 .f32) : FVec Ideal Cert.ReferenceIdeal.S100000x7 .f32 :=
  broadcastInDim Cert.ReferenceIdeal.S100000x7 ![0, 1] Cert.ReferenceIdeal.Facts₀.bcast_S100000x1_S100000x7_0_1
    (broadcastInDim Cert.ReferenceIdeal.S100000x1 ![0] Cert.ReferenceIdeal.Facts₀.bcast_S100000_S100000x1_0
      (maximumf (broadcastInDim Cert.ReferenceIdeal.S100000 ![] Cert.ReferenceIdeal.Facts₀.bcast_S_S100000 (constant (F := Ideal) Cert.ReferenceIdeal.S_ .f32 0xFF800000#32))
        (Host.reduce FloatOps.maximumf L (constant (F := Ideal) Cert.ReferenceIdeal.S_ .f32 0xFF800000#32)
          Cert.ReferenceIdeal.Facts₀.reducesTo_S100000x7_S100000_d1 Cert.ReferenceIdeal.Facts₀.h_S_)))

/-- The row-wise log-softmax in the host's spelling. -/
def hostLogSoftmax (L : FVec Ideal Cert.ReferenceIdeal.S100000x7 .f32) : FVec Ideal Cert.ReferenceIdeal.S100000x7 .f32 :=
  subf (subf L (rowMaxHost L))
    (broadcastInDim Cert.ReferenceIdeal.S100000x7 ![0, 1] Cert.ReferenceIdeal.Facts₀.bcast_S100000x1_S100000x7_0_1
      (Host.log (broadcastInDim Cert.ReferenceIdeal.S100000x1 ![0] Cert.ReferenceIdeal.Facts₀.bcast_S100000_S100000x1_0
        (Host.reduceAdd (Host.exp (subf L (rowMaxHost L))) (constant (F := Ideal) Cert.ReferenceIdeal.S_ .f32 0x00000000#32)
          Cert.ReferenceIdeal.Facts₀.reducesTo_S100000x7_S100000_d1 Cert.ReferenceIdeal.Facts₀.h_S_))))

/-- At (r, k) the repeated row maximum is the fold of `max` over row r from the value of the starting word: the
    second maximum with that value changes nothing. -/
theorem rowMaxHost_apply (L : FVec Ideal Cert.ReferenceIdeal.S100000x7 .f32) (r : Fin 100000) (k : Fin 7) :
    rowMaxHost L (ix2 r k) = (Finset.univ : Finset (Fin 7)).fold max bottom (fun j => L (ix2 r j)) := by
  unfold rowMaxHost
  rw [Cert.HostRowOps.colToMat_apply, Cert.HostRowOps.vecToCol_apply, maximumf_apply, broadcastInDim_scalar_apply, constant_apply,
    Cert.HostRowOps.rowMax_apply L _ Cert.ReferenceIdeal.Facts₀.reducesTo_S100000x7_S100000_d1 (by decide) Cert.ReferenceIdeal.Facts₀.h_S_ r]
  exact max_eq_right ((Finset.le_fold_max _).mpr (Or.inl le_rfl))

/-- The normalising region computes the host's row-wise log-softmax of the array plus the repeated bias row. -/
theorem normalise (a : FVec Ideal Cert.KernelIdeal.S100000x7 .f32) (v : FVec Ideal Cert.KernelIdeal.S1x7 .f32) :
    Cert.KernelIdeal.Region3.G a v
      = hostLogSoftmax (addf a (broadcastInDim Cert.ReferenceIdeal.S100000x7 ![0, 1] Cert.ReferenceIdeal.Facts₀.bcast_S1x7_S100000x7_0_1 v)) := by
  funext i
  obtain ⟨r, q, rfl⟩ : ∃ (r : Fin 100000) (q : Fin 7), i = ix2 r q := ⟨i 0, i 1, eq_ix2 i⟩
  have hL : ∀ k : Fin 7, (addf a (broadcastInDim Cert.ReferenceIdeal.S100000x7 ![0, 1] Cert.ReferenceIdeal.Facts₀.bcast_S1x7_S100000x7_0_1 v)) (ix2 r k)
      = a (ix2 r k) + v (ix2 (0 : Fin 1) k) := fun k => by
    rw [addf_apply, Cert.HostRowOps.rowToMat_apply]
  rw [Cert.KernelIdeal.Region3.G_apply]
  unfold hostLogSoftmax logSoftmaxRow
  rw [subf_apply, subf_apply, rowMaxHost_apply, Cert.HostRowOps.colToMat_apply, hostLog_apply, Cert.HostRowOps.vecToCol_apply,
    Cert.HostRowOps.rowSum_apply _ _ Cert.ReferenceIdeal.Facts₀.reducesTo_S100000x7_S100000_d1 (by decide) Cert.ReferenceIdeal.Facts₀.h_S_ r, constant_apply,
    Ideal.ofBits_zero_f32, zero_add]
  simp only [hostExp_apply, subf_apply, rowMaxHost_apply, hL]

/-- The reference lays the length-16 bias along a row; the kernel's program reshapes it into one row: the same one-row array. -/
theorem biasRow16 {α : Type} (x : Cert.ReferenceIdeal.S16.Idx → α) :
    broadcastInDim Cert.ReferenceIdeal.S1x16 ![1] Cert.ReferenceIdeal.Facts₀.bcast_S16_S1x16_1 x = shapeCast Cert.KernelIdeal.S1x16 x Cert.KernelIdeal.Facts₀.shapeCasts_S16_S1x16 := by
  funext i
  obtain ⟨u, j, rfl⟩ : ∃ (u : Fin 1) (j : Fin 16), i = ix2 u j := ⟨i 0, i 1, eq_ix2 i⟩
  obtain rfl : u = 0 := Subsingleton.elim _ _
  rw [Cert.HostRowOps.vecToRow_apply, rowView_apply (b := 16) x]

/-- The same for the length-7 bias. -/
theorem biasRow7 {α : Type} (x : Cert.ReferenceIdeal.S7.Idx → α) :
    broadcastInDim Cert.ReferenceIdeal.S1x7 ![1] Cert.ReferenceIdeal.Facts₀.bcast_S7_S1x7_1 x = shapeCast Cert.KernelIdeal.S1x7 x Cert.KernelIdeal.Facts₀.shapeCasts_S7_S1x7 := by
  funext i
  obtain ⟨u, j, rfl⟩ : ∃ (u : Fin 1) (j : Fin 7), i = ix2 u j := ⟨i 0, i 1, eq_ix2 i⟩
  obtain rfl : u = 0 := Subsingleton.elim _ _
  rw [Cert.HostRowOps.vecToRow_apply, rowView_apply (b := 7) x]

end Cert.HostForms

end
-- ==== Proof.LibLineEval.lean ====
/-
  Evaluating a line of host operations at one buffer, through joined vectors.

  What a buffer holds after a line of host operations is computed by walking the line backwards: an operation's own
  result buffer holds its function of what its operand buffers held before it, any other buffer what it held before.
  The library's one-pass form of this walk stops at a vector made by joining pieces end to end: the join takes its
  pieces as a list of (shape, vector) pairs and its side condition is stated of that list, so the pass cannot rewrite
  a piece and leaves the rest of the walk unevaluated inside it.  Stated as a function of its two pieces — the side
  condition then speaks of the two shapes only — a two-piece join lets the walk continue into both pieces.
  `eval_line` is the one-pass walk with that restatement added, and with the rules that take the first or the last
  so many operations of a literal line, so that a long line can be evaluated in two halves.
-/
import Idealize.ShloMosaic.Lib.StableHlo.Run

noncomputable section

namespace Cert.LineEval

open Idealize.ShloMosaic Idealize.ShloMosaic.StableHlo

/-- Two vectors joined along an axis, as a function of the two vectors. -/
def joined {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- The join of a two-element list of pieces is that function of the pieces. -/
theorem joined_eq {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = joined t a s₁ s₂ h x y := rfl

/-- The walk as one simplification pass over a literal line, or over a literal line's first or last so many
    operations; two-piece joins are entered. Closes a goal `after ops V (Proc.devRef .tc r) = …` or leaves an equation
    between the operations' functions applied to `V` at the buffers the line only reads. -/
macro "eval_line" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', joined_eq,
      List.take_succ_cons, List.take_zero, List.drop_succ_cons, List.drop_zero]))

end Cert.LineEval

end
-- ==== Proof.LibTypedRef.lean ====
/-
  Typed references and the transports they carry.

  A typed reference pairs a buffer with the type of the tensor value it holds; contents at the value's type are moved to
  contents of the buffer and back along the equation between the two types.  The transports change nothing: going there and
  back is the identity, and a transported value equals any value of the other type that it is heterogeneously equal to.
-/
import Idealize.ShloMosaic.Lib.StableHlo.Run

noncomputable section

namespace Cert.TypedRef

open Idealize.ShloMosaic Idealize.ShloMosaic.StableHlo

variable {sig : RefSig} {Val : EltTy → Type} {T : BufTy}

/-- To the buffer's type and back is the identity. -/
theorem ofBuf_toBuf (x : TRef sig T) (v : T.Contents Val) : x.ofBuf (x.toBuf v) = v := by
  obtain ⟨r, h, h1, h2⟩ := x
  subst h
  rfl

/-- A value moved to the buffer's type is any value of that type it is heterogeneously equal to. -/
theorem toBuf_eq (x : TRef sig T) (v : T.Contents Val) (w : x.ref.ty.Contents Val) (h : HEq v w) : x.toBuf v = w :=
  eq_of_heq ((cast_heq _ v).trans h)

/-- A value moved from the buffer's type is any value of the value's type it is heterogeneously equal to. -/
theorem ofBuf_eq (x : TRef sig T) (v : x.ref.ty.Contents Val) (w : T.Contents Val) (h : HEq v w) : x.ofBuf v = w :=
  eq_of_heq ((cast_heq _ v).trans h)

end Cert.TypedRef

end
-- ==== Proof.Transports.lean ====
/-
  Contents moved to a buffer's type and back are the contents.

  The two programs call a few small functions (the selection that replaces the reciprocal root of a zero degree, the
  clip at zero, the row-wise log-softmax) whose operations are stated at the tensor values' types; a value enters and
  leaves such an operation through a transport along the equation between the value's type and its buffer's type.  For
  each buffer below that equation holds by computation, so the transport is the identity.
-/
import proofs.«125439_j65876208386063_1_alg».proof.KernelIdeal
import proofs.«125439_j65876208386063_1_alg».proof.ReferenceIdeal
import Idealize.ShloMosaic.PureOps.Ideal
import Idealize.ShloMosaic.Lib.StableHlo.Run

noncomputable section

namespace Cert.Transports

open Idealize.ShloMosaic Idealize.ShloMosaic.StableHlo

variable [Cert.KernelIdeal.Facts₀] [Cert.ReferenceIdeal.Facts₀]

theorem k_toBuf_v15 (v : (⟨Cert.KernelIdeal.S100000, .f32⟩ : BufTy).Contents (Elt Ideal)) :
    (TRef.of Cert.KernelIdeal.main_v15 : TRef Cert.KernelIdeal.sig ⟨Cert.KernelIdeal.S100000, .f32⟩).toBuf v = v := rfl

theorem k_ofBuf_v12 (v : (⟨Cert.KernelIdeal.S100000, .i1⟩ : BufTy).Contents (Elt Ideal)) :
    (TRef.of Cert.KernelIdeal.main_v12 : TRef Cert.KernelIdeal.sig ⟨Cert.KernelIdeal.S100000, .i1⟩).ofBuf v = v := rfl

theorem k_ofBuf_v14 (v : (⟨Cert.KernelIdeal.S100000, .f32⟩ : BufTy).Contents (Elt Ideal)) :
    (TRef.of Cert.KernelIdeal.main_v14 : TRef Cert.KernelIdeal.sig ⟨Cert.KernelIdeal.S100000, .f32⟩).ofBuf v = v := rfl

theorem k_ofBuf_cst_3 (v : (⟨Cert.KernelIdeal.S_, .f32⟩ : BufTy).Contents (Elt Ideal)) :
    (TRef.of Cert.KernelIdeal.main_cst_3 : TRef Cert.KernelIdeal.sig ⟨Cert.KernelIdeal.S_, .f32⟩).ofBuf v = v := rfl

theorem r_toBuf_v16 (v : (⟨Cert.ReferenceIdeal.S100000, .f32⟩ : BufTy).Contents (Elt Ideal)) :
    (TRef.of Cert.ReferenceIdeal.main_v16 : TRef Cert.ReferenceIdeal.sig ⟨Cert.ReferenceIdeal.S100000, .f32⟩).toBuf v = v := rfl

theorem r_ofBuf_v13 (v : (⟨Cert.ReferenceIdeal.S100000, .i1⟩ : BufTy).Contents (Elt Ideal)) :
    (TRef.of Cert.ReferenceIdeal.main_v13 : TRef Cert.ReferenceIdeal.sig ⟨Cert.ReferenceIdeal.S100000, .i1⟩).ofBuf v = v := rfl

theorem r_ofBuf_v15 (v : (⟨Cert.ReferenceIdeal.S100000, .f32⟩ : BufTy).Contents (Elt Ideal)) :
    (TRef.of Cert.ReferenceIdeal.main_v15 : TRef Cert.ReferenceIdeal.sig ⟨Cert.ReferenceIdeal.S100000, .f32⟩).ofBuf v = v := rfl

theorem r_ofBuf_cst_3 (v : (⟨Cert.ReferenceIdeal.S_, .f32⟩ : BufTy).Contents (Elt Ideal)) :
    (TRef.of Cert.ReferenceIdeal.main_cst_3 : TRef Cert.ReferenceIdeal.sig ⟨Cert.ReferenceIdeal.S_, .f32⟩).ofBuf v = v := rfl

theorem r_toBuf_v58 (v : (⟨Cert.ReferenceIdeal.S100000, .f32⟩ : BufTy).Contents (Elt Ideal)) :
    (TRef.of Cert.ReferenceIdeal.main_v58 : TRef Cert.ReferenceIdeal.sig ⟨Cert.ReferenceIdeal.S100000, .f32⟩).toBuf v = v := rfl

theorem r_ofBuf_v55 (v : (⟨Cert.ReferenceIdeal.S100000, .i1⟩ : BufTy).Contents (Elt Ideal)) :
    (TRef.of Cert.ReferenceIdeal.main_v55 : TRef Cert.ReferenceIdeal.sig ⟨Cert.ReferenceIdeal.S100000, .i1⟩).ofBuf v = v := rfl

theorem r_ofBuf_v57 (v : (⟨Cert.ReferenceIdeal.S100000, .f32⟩ : BufTy).Contents (Elt Ideal)) :
    (TRef.of Cert.ReferenceIdeal.main_v57 : TRef Cert.ReferenceIdeal.sig ⟨Cert.ReferenceIdeal.S100000, .f32⟩).ofBuf v = v := rfl

theorem r_ofBuf_cst_14 (v : (⟨Cert.ReferenceIdeal.S_, .f32⟩ : BufTy).Contents (Elt Ideal)) :
    (TRef.of Cert.ReferenceIdeal.main_cst_14 : TRef Cert.ReferenceIdeal.sig ⟨Cert.ReferenceIdeal.S_, .f32⟩).ofBuf v = v := rfl

theorem r_toBuf_v48 (v : (⟨Cert.ReferenceIdeal.S100000x16, .f32⟩ : BufTy).Contents (Elt Ideal)) :
    (TRef.of Cert.ReferenceIdeal.main_v48 : TRef Cert.ReferenceIdeal.sig ⟨Cert.ReferenceIdeal.S100000x16, .f32⟩).toBuf v = v := rfl

theorem r_ofBuf_v47 (v : (⟨Cert.ReferenceIdeal.S100000x16, .f32⟩ : BufTy).Contents (Elt Ideal)) :
    (TRef.of Cert.ReferenceIdeal.main_v47 : TRef Cert.ReferenceIdeal.sig ⟨Cert.ReferenceIdeal.S100000x16, .f32⟩).ofBuf v = v := rfl

theorem r_toBuf_v90 (v : (⟨Cert.ReferenceIdeal.S100000x7, .f32⟩ : BufTy).Contents (Elt Ideal)) :
    (TRef.of Cert.ReferenceIdeal.main_v90 : TRef Cert.ReferenceIdeal.sig ⟨Cert.ReferenceIdeal.S100000x7, .f32⟩).toBuf v = v := rfl

theorem r_ofBuf_v89 (v : (⟨Cert.ReferenceIdeal.S100000x7, .f32⟩ : BufTy).Contents (Elt Ideal)) :
    (TRef.of Cert.ReferenceIdeal.main_v89 : TRef Cert.ReferenceIdeal.sig ⟨Cert.ReferenceIdeal.S100000x7, .f32⟩).ofBuf v = v := rfl

end Cert.Transports

end
-- ==== Proof.Bridge.lean ====
/-
  The two programs compute the same array.

  Both programs are lines of operations over buffers: the reference's line of host operations, and the idealized
  kernel's line in which each pipelined region stands as one operation.  What a buffer holds after a line is computed
  by walking the line backwards from the buffer to the arguments.  The two walks meet the same host operations in the
  same arrangement — the self-loops joined to the edge list, the degrees, the normalisation, the gathers and the
  scatter-adds — except where the kernel's line has a region: there the reference has the host operations that the
  region's function was shown to equal (a product, a bias-and-clip, a product, a row-wise log-softmax), and where the
  reference lays a bias vector along a row the kernel's line reshapes it into the same row.  After those rewritings the
  two results are one expression of the six arguments.
-/
import proofs.«125439_j65876208386063_1_alg».proof.Proof.KernelLine
import proofs.«125439_j65876208386063_1_alg».proof.Proof.RefRunP
import proofs.«125439_j65876208386063_1_alg».proof.Proof.HostForms
import proofs.«125439_j65876208386063_1_alg».proof.Proof.LibLineEval
import proofs.«125439_j65876208386063_1_alg».proof.Proof.LibTypedRef
import proofs.«125439_j65876208386063_1_alg».proof.Proof.Transports

set_option maxRecDepth 16384

noncomputable section

namespace Cert.Bridge

open Idealize.ShloMosaic Idealize.ShloMosaic.TcCoe Idealize.SL.Sem Idealize.ShloMosaic.StableHlo Cert.LineEval

set_option maxHeartbeats 8000000 in
set_option maxRecDepth 65536 in
/-- From contents that hold the same six arguments, the kernel's line leaves in its result buffer what the
    reference's line leaves in its own. -/
theorem results_agree
    (VK : Valuation Cert.KernelIdeal.τ Cert.KernelIdeal.sig (Elt Ideal)) (VR : Valuation Cert.ReferenceIdeal.τ Cert.ReferenceIdeal.sig (Elt Ideal))
    (x0 : (⟨Cert.KernelIdeal.S100000x512, .f32⟩ : BufTy).Contents (Elt Ideal)) (x1 : (⟨Cert.KernelIdeal.S512x16, .f32⟩ : BufTy).Contents (Elt Ideal))
    (x2 : (⟨Cert.KernelIdeal.S16, .f32⟩ : BufTy).Contents (Elt Ideal)) (x3 : (⟨Cert.KernelIdeal.S16x7, .f32⟩ : BufTy).Contents (Elt Ideal))
    (x4 : (⟨Cert.KernelIdeal.S7, .f32⟩ : BufTy).Contents (Elt Ideal)) (x5 : (⟨Cert.KernelIdeal.S2x3200000, .i32⟩ : BufTy).Contents (Elt Ideal))
    (hK0 : VK (Proc.devRef .tc Cert.KernelIdeal.main_arg0) = x0) (hK1 : VK (Proc.devRef .tc Cert.KernelIdeal.main_arg1) = x1)
    (hK2 : VK (Proc.devRef .tc Cert.KernelIdeal.main_arg2) = x2) (hK3 : VK (Proc.devRef .tc Cert.KernelIdeal.main_arg3) = x3)
    (hK4 : VK (Proc.devRef .tc Cert.KernelIdeal.main_arg4) = x4) (hK5 : VK (Proc.devRef .tc Cert.KernelIdeal.main_arg5) = x5)
    (hR0 : VR (Proc.devRef .tc Cert.ReferenceIdeal.main_arg0) = x0) (hR1 : VR (Proc.devRef .tc Cert.ReferenceIdeal.main_arg1) = x1)
    (hR2 : VR (Proc.devRef .tc Cert.ReferenceIdeal.main_arg2) = x2) (hR3 : VR (Proc.devRef .tc Cert.ReferenceIdeal.main_arg3) = x3)
    (hR4 : VR (Proc.devRef .tc Cert.ReferenceIdeal.main_arg4) = x4) (hR5 : VR (Proc.devRef .tc Cert.ReferenceIdeal.main_arg5) = x5) :
    (Cert.KernelIdeal.Line.fold VK (Proc.devRef .tc Cert.KernelIdeal.main_v62) : (⟨Cert.KernelIdeal.S100000x7, .f32⟩ : BufTy).Contents (Elt Ideal))
      = after (Cert.ReferenceIdeal.ValueP.ops (F := Ideal)) VR (Proc.devRef .tc Cert.ReferenceIdeal.main_v90) := by
  unfold Cert.KernelIdeal.Line.fold
  eval_line
  simp only [hK0, hK1, hK2, hK3, hK4, hK5, hR0, hR1, hR2, hR3, hR4, hR5]
  simp only [Cert.TypedRef.ofBuf_toBuf,
    Cert.Transports.k_toBuf_v15, Cert.Transports.k_ofBuf_v12, Cert.Transports.k_ofBuf_v14, Cert.Transports.k_ofBuf_cst_3,
    Cert.Transports.r_toBuf_v16, Cert.Transports.r_ofBuf_v13, Cert.Transports.r_ofBuf_v15, Cert.Transports.r_ofBuf_cst_3,
    Cert.Transports.r_toBuf_v58, Cert.Transports.r_ofBuf_v55, Cert.Transports.r_ofBuf_v57, Cert.Transports.r_ofBuf_cst_14,
    Cert.Transports.r_toBuf_v48, Cert.Transports.r_ofBuf_v47, Cert.Transports.r_toBuf_v90, Cert.Transports.r_ofBuf_v89,
    Cert.HostForms.product0, Cert.HostForms.product2, Cert.HostForms.biasClip,
    Cert.HostForms.normalise, Cert.HostForms.hostLogSoftmax, Cert.HostForms.rowMaxHost,
    Cert.HostForms.biasRow16 x2, Cert.HostForms.biasRow7 x4]
  rfl

end Cert.Bridge

end
-- ==== Proof.lean ====
/-
  Two layers of graph convolution with symmetric degree normalisation, followed by a row-wise log-softmax, computed
  by a program with four pipelined regions (two products, a bias-and-clip, a bias-and-log-softmax) among host
  gathers and scatter-adds, against the same network written with host operations only.

  The frames of the two kernel programs are the generated ones.  The reference is a line of host operations; its
  run leaves every buffer at the line's fold over the launch contents, and the line writes no argument.
  Nothing was rewritten by the idealization, so there is nothing to preserve.
  For the value claim: each region's output array is one function of its two input arrays (a product of whole arrays,
  a bias-and-clip of the whole array, a row-wise log-softmax of the whole array plus the bias), because a block of
  rows of the output depends on the same block of rows of the input only and the blocks tile the array; so the
  kernel's program is itself a line of operations, and its result and the reference's are the same expression of
  the arguments once each region's function is written in the host's spelling.  No step uses finiteness of an input.
-/
import proofs.«125439_j65876208386063_1_alg».proof.Defs
import proofs.«125439_j65876208386063_1_alg».proof.Proof.Gen.Kernel
import proofs.«125439_j65876208386063_1_alg».proof.Proof.Gen.Kernel.Frame
import proofs.«125439_j65876208386063_1_alg».proof.Proof.Gen.KernelIdeal
import proofs.«125439_j65876208386063_1_alg».proof.Proof.Gen.KernelIdeal.Frame
import proofs.«125439_j65876208386063_1_alg».proof.Proof.Gen.ReferenceIdeal
import proofs.«125439_j65876208386063_1_alg».proof.Proof.Gen.Pre_finite_inputs
import proofs.«125439_j65876208386063_1_alg».proof.Proof.KernelRun
import proofs.«125439_j65876208386063_1_alg».proof.Proof.KernelLine
import proofs.«125439_j65876208386063_1_alg».proof.Proof.RefRunP
import proofs.«125439_j65876208386063_1_alg».proof.Proof.RefKept
import proofs.«125439_j65876208386063_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

/-- The reference's run, read at the argument buffers only. -/
theorem frame_referenceIdeal : Cert.frame_ReferenceIdeal := fun m ρ _ =>
  (θ_run Cert.ReferenceIdeal.defs _ _).mono (fun _ h c =>
    ⟨(h c Cert.ReferenceIdeal.main_arg0).trans (Cert.ReferenceIdeal.Kept.kept_arg0 m c),
     (h c Cert.ReferenceIdeal.main_arg1).trans (Cert.ReferenceIdeal.Kept.kept_arg1 m c),
     (h c Cert.ReferenceIdeal.main_arg2).trans (Cert.ReferenceIdeal.Kept.kept_arg2 m c),
     (h c Cert.ReferenceIdeal.main_arg3).trans (Cert.ReferenceIdeal.Kept.kept_arg3 m c),
     (h c Cert.ReferenceIdeal.main_arg4).trans (Cert.ReferenceIdeal.Kept.kept_arg4 m c),
     (h c Cert.ReferenceIdeal.main_arg5).trans (Cert.ReferenceIdeal.Kept.kept_arg5 m c)⟩)
    (Cert.ReferenceIdeal.ValueP.run (F := Ideal) m ρ)

/-- Both programs end with the same result: the kernel's run leaves its result buffer at its line's fold over the
    launch contents, the reference's at its own line's fold, and the two folds agree on contents that hold the same
    arguments. -/
theorem algebraic : Cert.algebraic_KernelIdeal_ReferenceIdeal := by
  intro m ρ m' ρ' _ hagree
  refine ⟨fun c => Cert.KernelIdeal.Gen.W9 m ρ c (Proc.devRef .tc Cert.KernelIdeal.main_v62), Cert.KernelIdeal.Result.run m ρ, ?_⟩
  refine (θ_run Cert.ReferenceIdeal.defs _ _).mono (fun _ h c =>
    ⟨(h c Cert.ReferenceIdeal.main_v90).trans ?_,
     (h c Cert.ReferenceIdeal.main_arg0).trans (Cert.ReferenceIdeal.Kept.kept_arg0 m' c),
     (h c Cert.ReferenceIdeal.main_arg1).trans (Cert.ReferenceIdeal.Kept.kept_arg1 m' c),
     (h c Cert.ReferenceIdeal.main_arg2).trans (Cert.ReferenceIdeal.Kept.kept_arg2 m' c),
     (h c Cert.ReferenceIdeal.main_arg3).trans (Cert.ReferenceIdeal.Kept.kept_arg3 m' c),
     (h c Cert.ReferenceIdeal.main_arg4).trans (Cert.ReferenceIdeal.Kept.kept_arg4 m' c),
     (h c Cert.ReferenceIdeal.main_arg5).trans (Cert.ReferenceIdeal.Kept.kept_arg5 m' c)⟩)
    (Cert.ReferenceIdeal.ValueP.run (F := Ideal) m' ρ')
  show _ = Cert.KernelIdeal.Gen.W9 m ρ c (Proc.devRef .tc Cert.KernelIdeal.main_v62)
  rw [Cert.KernelIdeal.Line.line m ρ c]
  exact (Cert.Bridge.results_agree (Cert.KernelIdeal.Gen.W0 m ρ c) (launchContents m' c)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    rfl rfl rfl rfl rfl rfl
    (hagree c).1 (hagree c).2.1 (hagree c).2.2.1 (hagree c).2.2.2.1 (hagree c).2.2.2.2.1 (hagree c).2.2.2.2.2).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
